-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x56x56 : Shape := ⟨4, ![64, 64, 56, 56]⟩
abbrev S128x64x3x3 : Shape := ⟨4, ![128, 64, 3, 3]⟩
abbrev S128 : Shape := ⟨1, ![128]⟩
abbrev S_ : Shape := ⟨0, ![]⟩

class Facts : Prop where
  bcast_S_S64x64x56x56 : S_.BroadcastsInDim S64x64x56x56 (![] : Fin 0 → Fin S64x64x56x56.rank)
  reducesTo_S64x64x56x56_S_d0_1_2_3 : S64x64x56x56.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S64x64x56x56 .f32) (main_arg1 : FVec F S128x64x3x3 .f32) (main_arg2 : FVec F S128 .f32) (main_arg3 : FVec F S128 .f32) : IVec S_ 1 :=
  let main_v0 : FVec F S64x64x56x56 .f32 := Host.absf main_arg0
  let main_cst : FVec F S_ .f32 := constant S_ .f32 0x7F800000#32
  let main_v1 : FVec F S64x64x56x56 .f32 := broadcastInDim S64x64x56x56 ![] bcast_S_S64x64x56x56 main_cst
  let main_v2 : IVec S64x64x56x56 1 := cmpf .olt main_v0 main_v1
  let main_c : IVec S_ 1 := constantI S_ 1 1#1
  let main_v3 : IVec S_ 1 := (fun x v => Host.reduce IntOp.andi x v reducesTo_S64x64x56x56_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S64x64x56x56 : Shape := ⟨4, ![64, 64, 56, 56]⟩
abbrev S128x64x3x3 : Shape := ⟨4, ![128, 64, 3, 3]⟩
abbrev S128 : Shape := ⟨1, ![128]⟩
abbrev S64x56x56x64 : Shape := ⟨4, ![64, 56, 56, 64]⟩
abbrev S_ : Shape := ⟨0, ![]⟩
abbrev S64x58x58x64 : Shape := ⟨4, ![64, 58, 58, 64]⟩
abbrev S3x3x64x128 : Shape := ⟨4, ![3, 3, 64, 128]⟩
abbrev S576x128 : Shape := ⟨2, ![576, 128]⟩
abbrev S64x128x3136 : Shape := ⟨3, ![64, 128, 3136]⟩
abbrev S64x2x128 : Shape := ⟨3, ![64, 2, 128]⟩
abbrev S64x1x128 : Shape := ⟨3, ![64, 1, 128]⟩
abbrev S64x128 : Shape := ⟨2, ![64, 128]⟩
abbrev S128x1 : Shape := ⟨2, ![128, 1]⟩
abbrev S64x128x56x56 : Shape := ⟨4, ![64, 128, 56, 56]⟩
abbrev S1x58x58x64 : Shape := ⟨4, ![1, 58, 58, 64]⟩
abbrev S1x128x3136 : Shape := ⟨3, ![1, 128, 3136]⟩
abbrev S1x2x128 : Shape := ⟨3, ![1, 2, 128]⟩
abbrev S1x56x56x64 : Shape := ⟨4, ![1, 56, 56, 64]⟩
abbrev S56x56x64 : Shape := ⟨3, ![56, 56, 64]⟩
abbrev S3136x64 : Shape := ⟨2, ![3136, 64]⟩
abbrev S3136x576 : Shape := ⟨2, ![3136, 576]⟩
abbrev S3136x128 : Shape := ⟨2, ![3136, 128]⟩
abbrev S1x128 : Shape := ⟨2, ![1, 128]⟩
abbrev S1x1x128 : Shape := ⟨3, ![1, 1, 128]⟩
abbrev S128x3136 : Shape := ⟨2, ![128, 3136]⟩

abbrev nBuf : Space → Nat
  | .hbm => 44
  | .vmem => 13
  | .smem => 0
  | _ => 0

abbrev bufTy : (tb : Table) → Fin (tcTables nBuf tb) → BufTy
  | .hbm, ⟨0, _⟩ => ⟨S64x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S64x64x56x56, .bf16⟩
  | .hbm, ⟨5, _⟩ => ⟨S64x56x56x64, .bf16⟩
  | .hbm, ⟨6, _⟩ => ⟨S_, .i32⟩
  | .hbm, ⟨7, _⟩ => ⟨S_, .bf16⟩
  | .hbm, ⟨8, _⟩ => ⟨S64x58x58x64, .bf16⟩
  | .hbm, ⟨9, _⟩ => ⟨S128x64x3x3, .bf16⟩
  | .hbm, ⟨10, _⟩ => ⟨S3x3x64x128, .bf16⟩
  | .hbm, ⟨11, _⟩ => ⟨S576x128, .bf16⟩
  | .hbm, ⟨12, _⟩ => ⟨S64x128x3136, .bf16⟩
  | .hbm, ⟨13, _⟩ => ⟨S64x2x128, .f32⟩
  | .hbm, ⟨14, _⟩ => ⟨S64x1x128, .f32⟩
  | .hbm, ⟨15, _⟩ => ⟨S64x128, .f32⟩
  | .hbm, ⟨16, _⟩ => ⟨S_, .f32⟩
  | .hbm, ⟨17, _⟩ => ⟨S128, .f32⟩
  | .hbm, ⟨18, _⟩ => ⟨S64x1x128, .f32⟩
  | .hbm, ⟨19, _⟩ => ⟨S64x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128x1, .f32⟩
  | .hbm, ⟨41, _⟩ => ⟨S128x1, .f32⟩
  | .hbm, ⟨42, _⟩ => ⟨S64x128x3136, .f32⟩
  | .hbm, ⟨43, _⟩ => ⟨S64x128x56x56, .f32⟩
  | .local _ .vmem, ⟨0, _⟩ => ⟨S1x58x58x64, .bf16⟩
  | .local _ .vmem, ⟨1, _⟩ => ⟨S1x58x58x64, .bf16⟩
  | .local _ .vmem, ⟨2, _⟩ => ⟨S576x128, .bf16⟩
  | .local _ .vmem, ⟨3, _⟩ => ⟨S1x128x3136, .bf16⟩
  | .local _ .vmem, ⟨4, _⟩ => ⟨S1x128x3136, .bf16⟩
  | .local _ .vmem, ⟨5, _⟩ => ⟨S1x2x128, .f32⟩
  | .local _ .vmem, ⟨6, _⟩ => ⟨S1x2x128, .f32⟩
  | .local _ .vmem, ⟨7, _⟩ => ⟨S1x128x3136, .bf16⟩
  | .local _ .vmem, ⟨8, _⟩ => ⟨S1x128x3136, .bf16⟩
  | .local _ .vmem, ⟨9, _⟩ => ⟨S128x1, .f32⟩
  | .local _ .vmem, ⟨10, _⟩ => ⟨S128x1, .f32⟩
  | .local _ .vmem, ⟨11, _⟩ => ⟨S1x128x3136, .f32⟩
  | .local _ .vmem, ⟨12, _⟩ => ⟨S1x128x3136, .f32⟩
  | _, _ => ⟨S64x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6_0 : Ref sig .tc := ⟨.hbm, 12, rfl⟩
abbrev main_call0_v6_1 : Ref sig .tc := ⟨.hbm, 13, rfl⟩
abbrev main_call0_v7 : Ref sig .tc := ⟨.hbm, 14, rfl⟩
abbrev main_call0_v8 : Ref sig .tc := ⟨.hbm, 15, rfl⟩
abbrev main_call0_cst : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_cst_0 : Ref sig .tc := ⟨.hbm, 20, rfl⟩
abbrev main_call0_v12 : Ref sig .tc := ⟨.hbm, 21, rfl⟩
abbrev main_call0_cst_1 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_cst_3 : Ref sig .tc := ⟨.hbm, 30, rfl⟩
abbrev main_call0_v19 : Ref sig .tc := ⟨.hbm, 31, rfl⟩
abbrev main_call0_v20 : Ref sig .tc := ⟨.hbm, 32, rfl⟩
abbrev main_call0_cst_4 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x3136 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x3136 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  transposes_S64x64x56x56_S64x56x56x64_0_2_3_1 : S64x64x56x56.Transposes [0, 2, 3, 1] S64x56x56x64
  pads_S64x56x56x64_S64x58x58x64_000_110_110_000 : S64x56x56x64.Pads (![0, 1, 1, 0] : Fin 4 → Nat) ![0, 1, 1, 0] ![0, 0, 0, 0] S64x58x58x64
  h_S_ : 0 < S_.numel
  transposes_S128x64x3x3_S3x3x64x128_2_3_1_0 : S128x64x3x3.Transposes [2, 3, 1, 0] S3x3x64x128
  shapeCasts_S3x3x64x128_S576x128 : S3x3x64x128.ShapeCasts S576x128
  slices_S64x2x128_S64x1x128_0_0_0 : S64x2x128.Slices ![0, 0, 0] S64x1x128
  shapeCasts_S64x1x128_S64x128 : S64x1x128.ShapeCasts S64x128
  reducesTo_S64x128_S128_d0 : S64x128.ReducesTo [0] S128
  slices_S64x2x128_S64x1x128_0_1_0 : S64x2x128.Slices ![0, 1, 0] S64x1x128
  bcast_S_S128 : S_.BroadcastsInDim S128 (![] : Fin 0 → Fin S128.rank)
  shapeCasts_S128_S128x1 : S128.ShapeCasts S128x1
  shapeCasts_S64x128x3136_S64x128x56x56 : S64x128x3136.ShapeCasts S64x128x56x56
  inb_S1x58x58x64_S1x56x56x64_0_0_0_0 : ∀ a, (![0, 0, 0, 0] : Fin 4 → Nat) a + S1x56x56x64.size a ≤ S1x58x58x64.size a
  h_S1x56x56x64 : 0 < S1x56x56x64.numel
  shapeCasts_S1x56x56x64_S56x56x64 : S1x56x56x64.ShapeCasts S56x56x64
  shapeCasts_S56x56x64_S3136x64 : S56x56x64.ShapeCasts S3136x64
  inb_S1x58x58x64_S1x56x56x64_0_0_1_0 : ∀ a, (![0, 0, 1, 0] : Fin 4 → Nat) a + S1x56x56x64.size a ≤ S1x58x58x64.size a
  inb_S1x58x58x64_S1x56x56x64_0_0_2_0 : ∀ a, (![0, 0, 2, 0] : Fin 4 → Nat) a + S1x56x56x64.size a ≤ S1x58x58x64.size a
  inb_S1x58x58x64_S1x56x56x64_0_1_0_0 : ∀ a, (![0, 1, 0, 0] : Fin 4 → Nat) a + S1x56x56x64.size a ≤ S1x58x58x64.size a
  inb_S1x58x58x64_S1x56x56x64_0_1_1_0 : ∀ a, (![0, 1, 1, 0] : Fin 4 → Nat) a + S1x56x56x64.size a ≤ S1x58x58x64.size a
  inb_S1x58x58x64_S1x56x56x64_0_1_2_0 : ∀ a, (![0, 1, 2, 0] : Fin 4 → Nat) a + S1x56x56x64.size a ≤ S1x58x58x64.size a
  inb_S1x58x58x64_S1x56x56x64_0_2_0_0 : ∀ a, (![0, 2, 0, 0] : Fin 4 → Nat) a + S1x56x56x64.size a ≤ S1x58x58x64.size a
  inb_S1x58x58x64_S1x56x56x64_0_2_1_0 : ∀ a, (![0, 2, 1, 0] : Fin 4 → Nat) a + S1x56x56x64.size a ≤ S1x58x58x64.size a
  inb_S1x58x58x64_S1x56x56x64_0_2_2_0 : ∀ a, (![0, 2, 2, 0] : Fin 4 → Nat) a + S1x56x56x64.size a ≤ S1x58x58x64.size a
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S576x128_S576x128_0_0 : ∀ a, (![0, 0] : Fin 2 → Nat) a + S576x128.size a ≤ S576x128.size a
  h_S576x128 : 0 < S576x128.numel
  shapeCasts_S576x128_S576x128 : S576x128.ShapeCasts S576x128
  reduces_S3136x128_S128 : S3136x128.Reduces [0] S128
  shapeCasts_S128_S1x128 : S128.ShapeCasts S1x128
  inb_S1x2x128_S1x1x128_0_0_0 : ∀ a, (![0, 0, 0] : Fin 3 → Nat) a + S1x1x128.size a ≤ S1x2x128.size a
  h_S1x1x128 : 0 < S1x1x128.numel
  shapeCasts_S1x1x128_S1x128 : S1x1x128.ShapeCasts S1x128
  shapeCasts_S1x128_S1x1x128 : S1x128.ShapeCasts S1x1x128
  inb_S1x2x128_S1x1x128_0_1_0 : ∀ a, (![0, 1, 0] : Fin 3 → Nat) a + S1x1x128.size a ≤ S1x2x128.size a
  transposes_S3136x128_p1_0_S128x3136 : S3136x128.Transposes [1, 0] S128x3136
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  packedbf16_S1x128x3136_S1x128x3136_0_0_0 : (Rect.unit (s := S1x128x3136) ![0, 0, 0] S1x128x3136.size inb_S1x128x3136_S1x128x3136_0_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3136 : S128x1.Broadcasts S128x3136
  dot_S3136x576_S576x128_S3136x128_1_0_0_1_n_n_wf : DotDims.WF S3136x576 S576x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S64x58x58x64.size a
  hwx0_0 : ∀ i : grid0.Coords, EltTy.bits .bf16 = 32 ∨ (Rect.block (s := S64x58x58x64) S1x58x58x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .bf16 = 32 ∨ (Rect.block (s := S576x128) S576x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3136.size a ≤ S64x128x3136.size a
  hwx0_2 : ∀ i : grid0.Coords, EltTy.bits .bf16 = 32 ∨ (Rect.block (s := S64x128x3136) S1x128x3136.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128.size a ≤ S64x2x128.size a
  hwx0_3 : ∀ i : grid0.Coords, EltTy.bits .f32 = 32 ∨ (Rect.block (s := S64x2x128) S1x2x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x3136.size a ≤ S64x128x3136.size a
  hwx1_0 : ∀ i : grid1.Coords, EltTy.bits .bf16 = 32 ∨ (Rect.block (s := S64x128x3136) S1x128x3136.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x3136.size a ≤ S64x128x3136.size a
  hwx1_3 : ∀ i : grid1.Coords, EltTy.bits .f32 = 32 ∨ (Rect.block (s := S64x128x3136) S1x128x3136.size (cc1_transform_3 i) (hinb1_3 i)).WholeWords (EltTy.packing .f32)

variable [Facts₀]

def dot_S3136x576_S576x128_S3136x128_1_0_0_1_n_n : DotDims S3136x576 S576x128 S3136x128 where
  lhsContracting := [1]
  rhsContracting := [0]
  lhsNonContracting := [0]
  rhsNonContracting := [1]
  lhsBatch := []
  rhsBatch := []
  wf := dot_S3136x576_S576x128_S3136x128_1_0_0_1_n_n_wf

abbrev win0_0 : Pipeline.Window sig grid0 :=
  Pipeline.Window.ofSpec (Memref.whole main_call0_v2) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6_0) S1x128x3136.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6_1) S1x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v6_0) S1x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v27) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v28) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v29) S1x128x3136.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x56x56 : Shape := ⟨4, ![64, 64, 56, 56]⟩
abbrev S128x64x3x3 : Shape := ⟨4, ![128, 64, 3, 3]⟩
abbrev S128 : Shape := ⟨1, ![128]⟩
abbrev S64x56x56x64 : Shape := ⟨4, ![64, 56, 56, 64]⟩
abbrev S_ : Shape := ⟨0, ![]⟩
abbrev S64x58x58x64 : Shape := ⟨4, ![64, 58, 58, 64]⟩
abbrev S64x1x58x58x64 : Shape := ⟨5, ![64, 1, 58, 58, 64]⟩
abbrev S3x3x64x128 : Shape := ⟨4, ![3, 3, 64, 128]⟩
abbrev S9x64x128 : Shape := ⟨3, ![9, 64, 128]⟩
abbrev S64x3136x128 : Shape := ⟨3, ![64, 3136, 128]⟩
abbrev S64x2x128 : Shape := ⟨3, ![64, 2, 128]⟩
abbrev S64x1x128 : Shape := ⟨3, ![64, 1, 128]⟩
abbrev S64x128 : Shape := ⟨2, ![64, 128]⟩
abbrev S1x1x128 : Shape := ⟨3, ![1, 1, 128]⟩
abbrev S64x56x56x128 : Shape := ⟨4, ![64, 56, 56, 128]⟩
abbrev S64x128x56x56 : Shape := ⟨4, ![64, 128, 56, 56]⟩
abbrev S1x58x58x64 : Shape := ⟨4, ![1, 58, 58, 64]⟩
abbrev S1x3136x128 : Shape := ⟨3, ![1, 3136, 128]⟩
abbrev S1x2x128 : Shape := ⟨3, ![1, 2, 128]⟩
abbrev S3136x128 : Shape := ⟨2, ![3136, 128]⟩
abbrev S1x56x56x64 : Shape := ⟨4, ![1, 56, 56, 64]⟩
abbrev S56x56x64 : Shape := ⟨3, ![56, 56, 64]⟩
abbrev S3136x64 : Shape := ⟨2, ![3136, 64]⟩
abbrev S1x64x128 : Shape := ⟨3, ![1, 64, 128]⟩
abbrev S1x128 : Shape := ⟨2, ![1, 128]⟩

abbrev nBuf : Space → Nat
  | .hbm => 57
  | .vmem => 13
  | .smem => 0
  | _ => 0

abbrev bufTy : (tb : Table) → Fin (tcTables nBuf tb) → BufTy
  | .hbm, ⟨0, _⟩ => ⟨S64x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S64x56x56x64, .f32⟩
  | .hbm, ⟨5, _⟩ => ⟨S_, .i32⟩
  | .hbm, ⟨6, _⟩ => ⟨S_, .f32⟩
  | .hbm, ⟨7, _⟩ => ⟨S64x58x58x64, .f32⟩
  | .hbm, ⟨8, _⟩ => ⟨S_, .i32⟩
  | .hbm, ⟨9, _⟩ => ⟨S_, .f32⟩
  | .hbm, ⟨10, _⟩ => ⟨S64x58x58x64, .f32⟩
  | .hbm, ⟨11, _⟩ => ⟨S64x1x58x58x64, .f32⟩
  | .hbm, ⟨12, _⟩ => ⟨S64x58x58x64, .f32⟩
  | .hbm, ⟨13, _⟩ => ⟨S3x3x64x128, .f32⟩
  | .hbm, ⟨14, _⟩ => ⟨S9x64x128, .f32⟩
  | .hbm, ⟨15, _⟩ => ⟨S_, .i32⟩
  | .hbm, ⟨16, _⟩ => ⟨S_, .f32⟩
  | .hbm, ⟨17, _⟩ => ⟨S9x64x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S64x3136x128, .f32⟩
  | .hbm, ⟨25, _⟩ => ⟨S64x2x128, .f32⟩
  | .hbm, ⟨26, _⟩ => ⟨S64x1x128, .f32⟩
  | .hbm, ⟨27, _⟩ => ⟨S64x128, .f32⟩
  | .hbm, ⟨28, _⟩ => ⟨S_, .f32⟩
  | .hbm, ⟨29, _⟩ => ⟨S128, .f32⟩
  | .hbm, ⟨30, _⟩ => ⟨S64x1x128, .f32⟩
  | .hbm, ⟨31, _⟩ => ⟨S64x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x1x128, .f32⟩
  | .hbm, ⟨53, _⟩ => ⟨S1x1x128, .f32⟩
  | .hbm, ⟨54, _⟩ => ⟨S64x3136x128, .f32⟩
  | .hbm, ⟨55, _⟩ => ⟨S64x56x56x128, .f32⟩
  | .hbm, ⟨56, _⟩ => ⟨S64x128x56x56, .f32⟩
  | .local _ .vmem, ⟨0, _⟩ => ⟨S1x58x58x64, .f32⟩
  | .local _ .vmem, ⟨1, _⟩ => ⟨S1x58x58x64, .f32⟩
  | .local _ .vmem, ⟨2, _⟩ => ⟨S9x64x128, .f32⟩
  | .local _ .vmem, ⟨3, _⟩ => ⟨S1x3136x128, .f32⟩
  | .local _ .vmem, ⟨4, _⟩ => ⟨S1x3136x128, .f32⟩
  | .local _ .vmem, ⟨5, _⟩ => ⟨S1x2x128, .f32⟩
  | .local _ .vmem, ⟨6, _⟩ => ⟨S1x2x128, .f32⟩
  | .local _ .vmem, ⟨7, _⟩ => ⟨S1x3136x128, .f32⟩
  | .local _ .vmem, ⟨8, _⟩ => ⟨S1x3136x128, .f32⟩
  | .local _ .vmem, ⟨9, _⟩ => ⟨S1x1x128, .f32⟩
  | .local _ .vmem, ⟨10, _⟩ => ⟨S1x1x128, .f32⟩
  | .local _ .vmem, ⟨11, _⟩ => ⟨S1x3136x128, .f32⟩
  | .local _ .vmem, ⟨12, _⟩ => ⟨S1x3136x128, .f32⟩
  | _, _ => ⟨S64x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_call1_v0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_call2_v0 : Ref sig .tc := ⟨.hbm, 16, rfl⟩
abbrev main_call0_v7 : Ref sig .tc := ⟨.hbm, 17, rfl⟩
abbrev main_call0_c_2 : Ref sig .tc := ⟨.hbm, 18, rfl⟩
abbrev main_call0_call3_v0 : Ref sig .tc := ⟨.hbm, 19, rfl⟩
abbrev main_call0_v8 : Ref sig .tc := ⟨.hbm, 20, rfl⟩
abbrev main_call0_c_3 : Ref sig .tc := ⟨.hbm, 21, rfl⟩
abbrev main_call0_call4_v0 : Ref sig .tc := ⟨.hbm, 22, rfl⟩
abbrev main_call0_v9 : Ref sig .tc := ⟨.hbm, 23, rfl⟩
abbrev main_call0_v10_0 : Ref sig .tc := ⟨.hbm, 24, rfl⟩
abbrev main_call0_v10_1 : Ref sig .tc := ⟨.hbm, 25, rfl⟩
abbrev main_call0_v11 : Ref sig .tc := ⟨.hbm, 26, rfl⟩
abbrev main_call0_v12 : Ref sig .tc := ⟨.hbm, 27, rfl⟩
abbrev main_call0_cst : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_cst_4 : Ref sig .tc := ⟨.hbm, 32, rfl⟩
abbrev main_call0_v16 : Ref sig .tc := ⟨.hbm, 33, rfl⟩
abbrev main_call0_cst_5 : Ref sig .tc := ⟨.hbm, 34, rfl⟩
abbrev main_call0_v17 : Ref sig .tc := ⟨.hbm, 35, rfl⟩
abbrev main_call0_v18 : Ref sig .tc := ⟨.hbm, 36, rfl⟩
abbrev main_call0_cst_6 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_cst_7 : Ref sig .tc := ⟨.hbm, 42, rfl⟩
abbrev main_call0_v23 : Ref sig .tc := ⟨.hbm, 43, rfl⟩
abbrev main_call0_v24 : Ref sig .tc := ⟨.hbm, 44, rfl⟩
abbrev main_call0_cst_8 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3136x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x3136x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x64x56x56_S64x56x56x64_0_2_3_1 : S64x64x56x56.Transposes [0, 2, 3, 1] S64x56x56x64
  pads_S64x56x56x64_S64x58x58x64_000_110_110_000 : S64x56x56x64.Pads (![0, 1, 1, 0] : Fin 4 → Nat) ![0, 1, 1, 0] ![0, 0, 0, 0] S64x58x58x64
  h_S_ : 0 < S_.numel
  pads_S64x58x58x64_S64x58x58x64_000_000_000_000 : S64x58x58x64.Pads (![0, 0, 0, 0] : Fin 4 → Nat) ![0, 0, 0, 0] ![0, 0, 0, 0] S64x58x58x64
  bcast_S64x58x58x64_S64x1x58x58x64_0_2_3_4 : S64x58x58x64.BroadcastsInDim S64x1x58x58x64 (![0, 2, 3, 4] : Fin 4 → Fin S64x1x58x58x64.rank)
  shapeCasts_S64x1x58x58x64_S64x58x58x64 : S64x1x58x58x64.ShapeCasts S64x58x58x64
  transposes_S128x64x3x3_S3x3x64x128_2_3_1_0 : S128x64x3x3.Transposes [2, 3, 1, 0] S3x3x64x128
  shapeCasts_S3x3x64x128_S9x64x128 : S3x3x64x128.ShapeCasts S9x64x128
  pads_S9x64x128_S9x64x128_000_000_000 : S9x64x128.Pads (![0, 0, 0] : Fin 3 → Nat) ![0, 0, 0] ![0, 0, 0] S9x64x128
  pads_S128_S128_000 : S128.Pads (![0] : Fin 1 → Nat) ![0] ![0] S128
  slices_S64x2x128_S64x1x128_0_0_0 : S64x2x128.Slices ![0, 0, 0] S64x1x128
  shapeCasts_S64x1x128_S64x128 : S64x1x128.ShapeCasts S64x128
  reducesTo_S64x128_S128_d0 : S64x128.ReducesTo [0] S128
  slices_S64x2x128_S64x1x128_0_1_0 : S64x2x128.Slices ![0, 1, 0] S64x1x128
  bcast_S_S128 : S_.BroadcastsInDim S128 (![] : Fin 0 → Fin S128.rank)
  shapeCasts_S128_S1x1x128 : S128.ShapeCasts S1x1x128
  shapeCasts_S64x3136x128_S64x56x56x128 : S64x3136x128.ShapeCasts S64x56x56x128
  transposes_S64x56x56x128_S64x128x56x56_0_3_1_2 : S64x56x56x128.Transposes [0, 3, 1, 2] S64x128x56x56
  inb_S1x58x58x64_S1x56x56x64_0_0_0_0 : ∀ a, (![0, 0, 0, 0] : Fin 4 → Nat) a + S1x56x56x64.size a ≤ S1x58x58x64.size a
  h_S1x56x56x64 : 0 < S1x56x56x64.numel
  shapeCasts_S1x56x56x64_S56x56x64 : S1x56x56x64.ShapeCasts S56x56x64
  shapeCasts_S56x56x64_S3136x64 : S56x56x64.ShapeCasts S3136x64
  inb_S9x64x128_S1x64x128_0_0_0 : ∀ a, (![0, 0, 0] : Fin 3 → Nat) a + S1x64x128.size a ≤ S9x64x128.size a
  h_S1x64x128 : 0 < S1x64x128.numel
  shapeCasts_S1x64x128_S64x128 : S1x64x128.ShapeCasts S64x128
  inb_S1x58x58x64_S1x56x56x64_0_0_1_0 : ∀ a, (![0, 0, 1, 0] : Fin 4 → Nat) a + S1x56x56x64.size a ≤ S1x58x58x64.size a
  inb_S9x64x128_S1x64x128_1_0_0 : ∀ a, (![1, 0, 0] : Fin 3 → Nat) a + S1x64x128.size a ≤ S9x64x128.size a
  inb_S1x58x58x64_S1x56x56x64_0_0_2_0 : ∀ a, (![0, 0, 2, 0] : Fin 4 → Nat) a + S1x56x56x64.size a ≤ S1x58x58x64.size a
  inb_S9x64x128_S1x64x128_2_0_0 : ∀ a, (![2, 0, 0] : Fin 3 → Nat) a + S1x64x128.size a ≤ S9x64x128.size a
  inb_S1x58x58x64_S1x56x56x64_0_1_0_0 : ∀ a, (![0, 1, 0, 0] : Fin 4 → Nat) a + S1x56x56x64.size a ≤ S1x58x58x64.size a
  inb_S9x64x128_S1x64x128_3_0_0 : ∀ a, (![3, 0, 0] : Fin 3 → Nat) a + S1x64x128.size a ≤ S9x64x128.size a
  inb_S1x58x58x64_S1x56x56x64_0_1_1_0 : ∀ a, (![0, 1, 1, 0] : Fin 4 → Nat) a + S1x56x56x64.size a ≤ S1x58x58x64.size a
  inb_S9x64x128_S1x64x128_4_0_0 : ∀ a, (![4, 0, 0] : Fin 3 → Nat) a + S1x64x128.size a ≤ S9x64x128.size a
  inb_S1x58x58x64_S1x56x56x64_0_1_2_0 : ∀ a, (![0, 1, 2, 0] : Fin 4 → Nat) a + S1x56x56x64.size a ≤ S1x58x58x64.size a
  inb_S9x64x128_S1x64x128_5_0_0 : ∀ a, (![5, 0, 0] : Fin 3 → Nat) a + S1x64x128.size a ≤ S9x64x128.size a
  inb_S1x58x58x64_S1x56x56x64_0_2_0_0 : ∀ a, (![0, 2, 0, 0] : Fin 4 → Nat) a + S1x56x56x64.size a ≤ S1x58x58x64.size a
  inb_S9x64x128_S1x64x128_6_0_0 : ∀ a, (![6, 0, 0] : Fin 3 → Nat) a + S1x64x128.size a ≤ S9x64x128.size a
  inb_S1x58x58x64_S1x56x56x64_0_2_1_0 : ∀ a, (![0, 2, 1, 0] : Fin 4 → Nat) a + S1x56x56x64.size a ≤ S1x58x58x64.size a
  inb_S9x64x128_S1x64x128_7_0_0 : ∀ a, (![7, 0, 0] : Fin 3 → Nat) a + S1x64x128.size a ≤ S9x64x128.size a
  inb_S1x58x58x64_S1x56x56x64_0_2_2_0 : ∀ a, (![0, 2, 2, 0] : Fin 4 → Nat) a + S1x56x56x64.size a ≤ S1x58x58x64.size a
  inb_S9x64x128_S1x64x128_8_0_0 : ∀ a, (![8, 0, 0] : Fin 3 → Nat) a + S1x64x128.size a ≤ S9x64x128.size a
  inb_S1x3136x128_S1x3136x128_0_0_0 : ∀ a, (![0, 0, 0] : Fin 3 → Nat) a + S1x3136x128.size a ≤ S1x3136x128.size a
  h_S1x3136x128 : 0 < S1x3136x128.numel
  shapeCasts_S1x3136x128_S3136x128 : S1x3136x128.ShapeCasts S3136x128
  shapeCasts_S3136x128_S1x3136x128 : S3136x128.ShapeCasts S1x3136x128
  reduces_S3136x128_S128 : S3136x128.Reduces [0] S128
  shapeCasts_S128_S1x128 : S128.ShapeCasts S1x128
  inb_S1x2x128_S1x1x128_0_0_0 : ∀ a, (![0, 0, 0] : Fin 3 → Nat) a + S1x1x128.size a ≤ S1x2x128.size a
  h_S1x1x128 : 0 < S1x1x128.numel
  shapeCasts_S1x1x128_S1x128 : S1x1x128.ShapeCasts S1x128
  shapeCasts_S1x128_S1x1x128 : S1x128.ShapeCasts S1x1x128
  inb_S1x2x128_S1x1x128_0_1_0 : ∀ a, (![0, 1, 0] : Fin 3 → Nat) a + S1x1x128.size a ≤ S1x2x128.size a
  shapeCasts_S1x3136x128_S1x3136x128 : S1x3136x128.ShapeCasts S1x3136x128
  inb_S1x1x128_S1x1x128_0_0_0 : ∀ a, (![0, 0, 0] : Fin 3 → Nat) a + S1x1x128.size a ≤ S1x1x128.size a
  shapeCasts_S1x1x128_S1x1x128 : S1x1x128.ShapeCasts S1x1x128
  broadcasts_S1x1x128_S1x3136x128 : S1x1x128.Broadcasts S1x3136x128
  dot_S3136x64_S64x128_S3136x128_1_0_0_1_n_n_wf : DotDims.WF S3136x64 S64x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S64x58x58x64.size a
  hwx0_0 : ∀ i : grid0.Coords, EltTy.bits .f32 = 32 ∨ (Rect.block (s := S64x58x58x64) S1x58x58x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64x128.size a ≤ S9x64x128.size a
  hwx0_1 : ∀ i : grid0.Coords, EltTy.bits .f32 = 32 ∨ (Rect.block (s := S9x64x128) S9x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3136x128.size a ≤ S64x3136x128.size a
  hwx0_2 : ∀ i : grid0.Coords, EltTy.bits .f32 = 32 ∨ (Rect.block (s := S64x3136x128) S1x3136x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128.size a ≤ S64x2x128.size a
  hwx0_3 : ∀ i : grid0.Coords, EltTy.bits .f32 = 32 ∨ (Rect.block (s := S64x2x128) S1x2x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x128.size a ≤ S64x3136x128.size a
  hwx1_0 : ∀ i : grid1.Coords, EltTy.bits .f32 = 32 ∨ (Rect.block (s := S64x3136x128) S1x3136x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S1x1x128.size a
  hwx1_1 : ∀ i : grid1.Coords, EltTy.bits .f32 = 32 ∨ (Rect.block (s := S1x1x128) S1x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S1x1x128.size a
  hwx1_2 : ∀ i : grid1.Coords, EltTy.bits .f32 = 32 ∨ (Rect.block (s := S1x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3136x128.size a ≤ S64x3136x128.size a
  hwx1_3 : ∀ i : grid1.Coords, EltTy.bits .f32 = 32 ∨ (Rect.block (s := S64x3136x128) S1x3136x128.size (cc1_transform_3 i) (hinb1_3 i)).WholeWords (EltTy.packing .f32)

variable [Facts₀]

def dot_S3136x64_S64x128_S3136x128_1_0_0_1_n_n : DotDims S3136x64 S64x128 S3136x128 where
  lhsContracting := [1]
  rhsContracting := [0]
  lhsNonContracting := [0]
  rhsNonContracting := [1]
  lhsBatch := []
  rhsBatch := []
  wf := dot_S3136x64_S64x128_S3136x128_1_0_0_1_n_n_wf

abbrev win0_0 : Pipeline.Window sig grid0 :=
  Pipeline.Window.ofSpec (Memref.whole main_call0_v4) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S9x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10_0) S1x3136x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10_1) S1x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v10_0) S1x3136x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v31) S1x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v32) S1x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v33) S1x3136x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelRun.lean ====
/-
  The run of the whole program with its result NAMED: every weakly fair execution of @main from a memory with zero
  counters terminates, nothing faulting, with the result array at the last boundary's contents `W5` — the fold of the
  host operations and the two regions' write-backs through @main — and the four argument arrays as launched.
  The thread state after the last segment holds every unscoped buffer at `W5`; the result's buffer is one of them.
-/
import proofs.«103070_g2000601905423008_pallasbulk_286_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to completion; the result array ends at `W5 … main_v0` and the arguments unchanged. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.RunValue

end
-- ==== Proof.ReferenceRun.lean ====
/-
  The run of the whole program with its result NAMED: every weakly fair execution of @main from a memory with zero
  counters terminates, nothing faulting, with the result array at the last boundary's contents `W5` — the fold of the
  host operations and the two regions' write-backs through @main — and the four argument arrays as launched.
  The thread state after the last segment holds every unscoped buffer at `W5`; the result's buffer is one of them.
-/
import proofs.«103070_g2000601905423008_pallasbulk_286_2_alg».proof.Proof.Gen.ReferenceIdeal.Frame

set_option maxRecDepth 16384

noncomputable section

namespace Cert.ReferenceIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to completion; the result array ends at `W5 … main_v0` and the arguments unchanged. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.ReferenceIdeal.RunValue

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.ConvSum.lean ====
/-
  The law that joins the two programs. A 3×3 convolution of a 64-channel image is, at each output position p and output
  channel o, one sum of 576 products: tap t (of nine) and input channel c (of 64) contribute
  a_t(p, c) · w(t, c, o). One program forms it as ONE contraction of length 576 over the nine tap matrices laid side by
  side (column 64·t + c) against the weights flattened to 576 rows; the other starts from zero and adds nine
  contractions of length 64, one tap after another. On the extended reals addition is commutative and associative
  with no finiteness needed, so the long sum splits into its nine consecutive blocks and the two are equal.
-/
import Idealize.ShloMosaic.PureOps.Ideal.Laws
import Idealize.ShloMosaic.Lib.ValueIdx
import Idealize.ShloMosaic.Lib.Pipeline.Value
import proofs.«103070_g2000601905423008_pallasbulk_286_2_alg».proof.Proof.LibBlockSum
import proofs.«103070_g2000601905423008_pallasbulk_286_2_alg».proof.Proof.LibPlainDot

set_option maxRecDepth 16384

noncomputable section

namespace ConvSum

open Idealize.ShloMosaic Idealize.ShloMosaic.ValueIdx

/-- A sum over 576 consecutive positions is zero plus its nine consecutive blocks of 64, added left to right. -/
theorem sum_576_blocks (f : ℕ → EReal) :
    ∑ k : Fin 576, f k.val
      = (((((((((0 + ∑ c : Fin 64, f (64 * 0 + c.val)) + ∑ c : Fin 64, f (64 * 1 + c.val))
          + ∑ c : Fin 64, f (64 * 2 + c.val)) + ∑ c : Fin 64, f (64 * 3 + c.val)) + ∑ c : Fin 64, f (64 * 4 + c.val))
          + ∑ c : Fin 64, f (64 * 5 + c.val)) + ∑ c : Fin 64, f (64 * 6 + c.val)) + ∑ c : Fin 64, f (64 * 7 + c.val))
          + ∑ c : Fin 64, f (64 * 8 + c.val)) := by
  have h := AnchorGcn.sum_fin_blocks f 9 64
  rw [show (∑ k : Fin 576, f k.val) = ∑ i : Fin (9 * 64), f i.val from rfl, h]
  simp only [Finset.sum_range_succ, Finset.sum_range_zero]

abbrev Taps : Shape := ⟨2, ![3136, 64]⟩
abbrev Cat : Shape := ⟨2, ![3136, 576]⟩
abbrev Acc : Shape := ⟨2, ![3136, 128]⟩
abbrev WFlat : Shape := ⟨2, ![576, 128]⟩
abbrev WTap : Shape := ⟨2, ![64, 128]⟩
abbrev WStack : Shape := ⟨3, ![9, 64, 128]⟩

/-- Tap `t`'s contribution at output entry `j` = (position, output channel): the contraction over the 64 input
    channels. -/
def tapSum (a : Fin 9 → Taps.Idx → EReal) (w : WStack.Idx → EReal) (t : Fin 9) (j : Acc.Idx) : EReal :=
  ∑ c : Fin 64, a t (ix2 (j 0) c) * w (ix3 t c (j 1))

/-- The accumulator: zero plus the nine taps' contributions, added in order. -/
def acc (a : Fin 9 → Taps.Idx → EReal) (w : WStack.Idx → EReal) : Acc.Idx → EReal := fun j =>
  (((((((((0 + tapSum a w 0 j) + tapSum a w 1 j) + tapSum a w 2 j) + tapSum a w 3 j) + tapSum a w 4 j)
    + tapSum a w 5 j) + tapSum a w 6 j) + tapSum a w 7 j) + tapSum a w 8 j)

/-- ONE contraction of length 576: the left operand reads tap `k / 64` at channel `k % 64`, the right operand the
    flattened weights at row `k`. It is the accumulator. -/
theorem long_sum_eq (a : Fin 9 → Taps.Idx → EReal) (w : WStack.Idx → EReal)
    (cat : Cat.Idx → EReal) (wk : WFlat.Idx → EReal)
    (hcat : ∀ (p : Fin 3136) (t : Fin 9) (c : Fin 64) (k : Fin 576), k.val = 64 * t.val + c.val → cat (ix2 p k) = a t (ix2 p c))
    (hw : ∀ (t : Fin 9) (c : Fin 64) (o : Fin 128) (k : Fin 576), k.val = 64 * t.val + c.val → wk (ix2 k o) = w (ix3 t c o))
    (j : Acc.Idx) :
    ∑ k : Fin 576, cat (ix2 (j 0) k) * wk (ix2 k (j 1)) = acc a w j := by
  let f : ℕ → EReal := fun k => if h : k < 576 then cat (ix2 (j 0) ⟨k, h⟩) * wk (ix2 ⟨k, h⟩ (j 1)) else 0
  have hf : ∑ k : Fin 576, cat (ix2 (j 0) k) * wk (ix2 k (j 1)) = ∑ k : Fin 576, f k.val :=
    Finset.sum_congr rfl fun k _ => by
      show _ = if h : k.val < 576 then cat (ix2 (j 0) ⟨k.val, h⟩) * wk (ix2 ⟨k.val, h⟩ (j 1)) else 0
      rw [dif_pos k.isLt]
  have hblk : ∀ t : Fin 9, ∑ c : Fin 64, f (64 * t.val + c.val) = tapSum a w t j := fun t =>
    Finset.sum_congr rfl fun c _ => by
      have hk : 64 * t.val + c.val < 576 := by have := t.isLt; have := c.isLt; omega
      show (if h : 64 * t.val + c.val < 576 then cat (ix2 (j 0) ⟨64 * t.val + c.val, h⟩) * wk (ix2 ⟨64 * t.val + c.val, h⟩ (j 1)) else 0) = _
      rw [dif_pos hk, hcat (j 0) t c ⟨64 * t.val + c.val, hk⟩ rfl, hw t c (j 1) ⟨64 * t.val + c.val, hk⟩ rfl]
  rw [hf, sum_576_blocks f]
  unfold acc
  rw [← hblk 0, ← hblk 1, ← hblk 2, ← hblk 3, ← hblk 4, ← hblk 5, ← hblk 6, ← hblk 7, ← hblk 8]
  rfl

end ConvSum

end
-- ==== Proof.ConvSpec.lean ====
/-
  One image's padded block cut from the batch: image `n` of a [64, 58, 58, 64] array as a [1, 58, 58, 64] array.
  Both programs hand the convolution region exactly this block at grid point `n`.
-/
import Idealize.ShloMosaic.Lib.ValueIdx

noncomputable section

namespace ConvSpec

open Idealize.ShloMosaic Idealize.ShloMosaic.ValueIdx

abbrev Batch : Shape := ⟨4, ![64, 58, 58, 64]⟩
abbrev Image : Shape := ⟨4, ![1, 58, 58, 64]⟩

/-- Image `n`'s block: entry (0, i, j, c) is the batch's entry (n, i, j, c). -/
def imageBlock {α : Type} (X : Batch.Idx → α) (n : Nat) (hn : n < 64) : Image.Idx → α := fun y =>
  X (ix4 (⟨n, hn⟩ : Fin 64) (⟨(y 1).val, (y 1).isLt⟩ : Fin 58) (⟨(y 2).val, (y 2).isLt⟩ : Fin 58) (⟨(y 3).val, (y 3).isLt⟩ : Fin 64))

end ConvSpec

end
-- ==== Proof.KernelEntry.lean ====
/-
  What the first region is entered with. The host operations before it leave, in the image window's array, the
  input in channels-last order with one ring of zeros around each 56×56 plane (64 images of 58×58×64), and, in the
  weight window's array, the weights reordered to (tap row, tap column, input channel, output channel) and flattened
  to 576 rows: row (3·ki + kj)·64 + c. The casts to the narrower float format are the identity on extended reals.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The image array at the first region's entry: transpose to channels-last, then the ring of zeros. -/
theorem V1_image :
    (Gen.V1 (F := Ideal) m ρ c main_call0_v2 : S64x58x58x64.Idx → EReal)
      = pad S64x58x58x64 ![0, 1, 1, 0] ![0, 1, 1, 0] ![0, 0, 0, 0]
          (transpose S64x56x56x64 [0, 2, 3, 1] (truncf (F := Ideal) .bf16 (m ((c : Thread nD τ).loc main_arg0)) bitsLt_bf16_f32)
            transposes_S64x64x56x56_S64x56x56x64_0_2_3_1)
          (sitofp (F := Ideal) .bf16 (constantI S_ 32 0#32)) pads_S64x56x56x64_S64x58x58x64_000_110_110_000 h_S_ := by
  dsimp only [Gen.V1, Gen.W1, Gen.hostOps0]; after_results; rfl

/-- The weight array at the first region's entry: the reordered weights as 576 rows of 128. -/
theorem V1_weights :
    (Gen.V1 (F := Ideal) m ρ c main_call0_v5 : S576x128.Idx → EReal)
      = shapeCast S576x128
          (transpose S3x3x64x128 [2, 3, 1, 0] (truncf (F := Ideal) .bf16 (m ((c : Thread nD τ).loc main_arg1)) bitsLt_bf16_f32)
            transposes_S128x64x3x3_S3x3x64x128_2_3_1_0) shapeCasts_S3x3x64x128_S576x128 := by
  dsimp only [Gen.V1, Gen.W1, Gen.hostOps0]; after_results; rfl

end Cert.KernelIdeal.KValue

end
-- ==== Proof.KernelExit.lean ====
/-
  The program's result read off the second region's output array. The one host operation after that region splits
  the last axis of the [64, 128, 3136] array into 56 × 56, so entry (n, o, i, j) of the result is entry
  (n, o, 56·i + j) of the array: the same row-major position.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The result is the reshape of the second region's output array. -/
theorem result_eq :
    (Gen.W5 (F := Ideal) m ρ c (Proc.devRef .tc main_v0) : S64x128x56x56.Idx → EReal)
      = shapeCast S64x128x56x56 ((Gen.dat1 (Gen.V3 m ρ) c).arrAt 3 cfg1.N : S64x128x3136.Idx → EReal)
          shapeCasts_S64x128x3136_S64x128x56x56 := by
  have e : (Gen.W5 (F := Ideal) m ρ c (Proc.devRef .tc main_v0) : S64x128x56x56.Idx → EReal)
      = shapeCast S64x128x56x56 (Gen.W4 (F := Ideal) m ρ c (Proc.devRef .tc main_call0_v29) : S64x128x3136.Idx → EReal)
          shapeCasts_S64x128x3136_S64x128x56x56 := by
    dsimp only [Gen.W5, Gen.hostOps2]; after_results; rfl
  rw [e]
  exact congrArg (fun a : S64x128x3136.Idx → EReal => shapeCast S64x128x56x56 a shapeCasts_S64x128x3136_S64x128x56x56)
    (Gen.W4_arr m ρ c 3)

/-- Entry (n, o, i, j) of the result is entry (n, o, 56·i + j) of the second region's output array. -/
theorem result_apply (n : Fin 64) (o : Fin 128) (i j : Fin 56) (p : Fin 3136) (hp : p.val = i.val * 56 + j.val) :
    (Gen.W5 (F := Ideal) m ρ c (Proc.devRef .tc main_v0) : S64x128x56x56.Idx → EReal) (ix4 n o i j)
      = ((Gen.dat1 (Gen.V3 m ρ) c).arrAt 3 cfg1.N : S64x128x3136.Idx → EReal) (ix3 n o p) := by
  rw [result_eq]
  refine shapeCast_apply (s := S64x128x3136) (t := S64x128x56x56) _ _ _ _ ?_
  show (S64x128x3136.rowMajor (ix3 n o p)).val = (S64x128x56x56.rowMajor (ix4 n o i j)).val
  rw [Shape.rowMajor_val_three, Shape.rowMajor_val_four]
  show ((n.val * 128 + o.val) * 3136 + p.val) = (((n.val * 128 + o.val) * 56 + i.val) * 56 + j.val)
  rw [hp]; ring

end Cert.KernelIdeal.KValue

end
-- ==== Proof.KernelStatsArray.lean ====
/-
  The per-image statistics array after the first region. The region runs one grid point per image; point n leaves in
  the statistics window's [1, 2, 128] buffer the column sums (row 0) and the column sums of squares (row 1) of that
  image's accumulator, and writes it back to rows (n, ·, ·) of the [64, 2, 128] array. The blocks of the 64 points
  tile the array, so the array after the region is one function of its index.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

/-- The grid point that handles image `n`. -/
def statsPt (n : Nat) (h : n < 64) : Fin cfg0.N := ⟨n, by rw [show cfg0.N = 64 from N_0]; exact h⟩

/-- The window's block index at grid point `t` is (t, 0, 0): one image per point, the other two axes whole. -/
theorem statsIndex : ∀ t : Fin cfg0.N, win0_3.index t (0 : Fin 3) = t.val ∧ win0_3.index t (1 : Fin 3) = 0
    ∧ win0_3.index t (2 : Fin 3) = 0 :=
  (by decide +kernel : ∀ t : Fin grid0.N, _)

/-- The array after the region, as ONE function of its index (n, a, b): what the point of image `n` leaves in the
    window's buffer, read at (0, a, b). -/
def statsArr : S64x2x128.Idx → EReal := fun i =>
  (out0_3 (F := Ideal) (iblk0 V c 0 (statsPt (i 0).val (i 0).isLt)) (iblk0 V c 1 (statsPt (i 0).val (i 0).isLt)) : S1x2x128.Idx → EReal)
    (ix3 (0 : Fin 1) (⟨(i 1).val, (i 1).isLt⟩ : Fin 2) (⟨(i 2).val, (i 2).isLt⟩ : Fin 128))

/-- What point `t` writes back is block `t` of that function. -/
theorem statsFlushed (t : Fin cfg0.N) :
    (dat0 V c).flushed 3 t = ((cfg0.win 3).blk t).view.read (Elt Ideal) (statsArr V c) := by
  show (cfg0.win 3).cut (grid0.coords t) ((dat0 V c).after 3 t) = _
  rw [after0_3]
  obtain ⟨e0, e1, e2⟩ := statsIndex t
  funext x
  rw [View.read_apply]
  unfold statsArr
  have hx0 : (x 0).val < 1 := (x 0).isLt
  have ht : statsPt ((((cfg0.win 3).blk t).view.emb x) 0).val ((((cfg0.win 3).blk t).view.emb x) 0).isLt = t := by
    apply Fin.ext
    show win0_3.index t (0 : Fin 3) * 1 + 1 * (x 0).val = t.val
    omega
  have hx : ix3 (0 : Fin 1) (⟨((((cfg0.win 3).blk t).view.emb x) 1).val, ((((cfg0.win 3).blk t).view.emb x) 1).isLt⟩ : Fin 2)
      (⟨((((cfg0.win 3).blk t).view.emb x) 2).val, ((((cfg0.win 3).blk t).view.emb x) 2).isLt⟩ : Fin 128) = x := by
    funext a; apply Fin.ext
    match a with
    | ⟨0, _⟩ => show 0 = (x 0).val; omega
    | ⟨1, _⟩ => show win0_3.index t (1 : Fin 3) * 2 + 1 * (x 1).val = (x 1).val; omega
    | ⟨2, _⟩ => show win0_3.index t (2 : Fin 3) * 128 + 1 * (x 2).val = (x 2).val; omega
  rw [ht, hx]
  -- the write-back's re-indexing of the buffer is the identity, and the view's element type is the array's
  refine Eq.trans ?_ (cast_eq _ _).symm
  exact congrArg (out0_3 (F := Ideal) (iblk0 V c 0 t) (iblk0 V c 1 t) : S1x2x128.Idx → EReal) (funext fun a => Fin.ext rfl)

/-- Every index of the array lies in the block of its image's point. -/
theorem statsCover (i : S64x2x128.Idx) :
    ∃ t : Fin cfg0.N, (cfg0.win 3).flush t = true ∧ i ∈ ((cfg0.win 3).blk t).view.set := by
  refine ⟨statsPt (i 0).val (i 0).isLt, flush0_3 _, ?_⟩
  obtain ⟨e0, e1, e2⟩ := statsIndex (statsPt (i 0).val (i 0).isLt)
  have h := ((cfg0.win 3).blk (statsPt (i 0).val (i 0).isLt)).view.emb_mem_set
    (ix3 (0 : Fin 1) (⟨(i 1).val, (i 1).isLt⟩ : Fin 2) (⟨(i 2).val, (i 2).isLt⟩ : Fin 128))
  have e : ((cfg0.win 3).blk (statsPt (i 0).val (i 0).isLt)).view.emb
      (ix3 (0 : Fin 1) (⟨(i 1).val, (i 1).isLt⟩ : Fin 2) (⟨(i 2).val, (i 2).isLt⟩ : Fin 128)) = i := by
    funext a; apply Fin.ext
    match a with
    | ⟨0, _⟩ => show win0_3.index (statsPt (i 0).val (i 0).isLt) (0 : Fin 3) * 1 + 1 * 0 = (i 0).val
                rw [e0]; show (i 0).val * 1 + 1 * 0 = (i 0).val; omega
    | ⟨1, _⟩ => show win0_3.index (statsPt (i 0).val (i 0).isLt) (1 : Fin 3) * 2 + 1 * (i 1).val = (i 1).val
                rw [e1]; omega
    | ⟨2, _⟩ => show win0_3.index (statsPt (i 0).val (i 0).isLt) (2 : Fin 3) * 128 + 1 * (i 2).val = (i 2).val
                rw [e2]; omega
  rw [e] at h
  exact h

/-- The array after the region IS that function. -/
theorem statsEq : ((dat0 V c).arrAt 3 cfg0.N : S64x2x128.Idx → EReal) = statsArr V c :=
  (dat0 V c).arrAt_eq_of_cover 3 (statsArr V c) (fun t _ => statsFlushed V c t) statsCover

end Cert.KernelIdeal.KValue

end
-- ==== Proof.KernelConvArray.lean ====
/-
  The convolution's output array after the first region, stored transposed: [64, 128, 3136] = (image, output channel,
  position). Point n leaves its image's [1, 128, 3136] block in the window's buffer and writes it back to rows
  (n, ·, ·); the 64 blocks tile the array, so the array after the region is one function of its index.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

/-- The grid point that handles image `n`. -/
def convPt (n : Nat) (h : n < 64) : Fin cfg0.N := ⟨n, by rw [show cfg0.N = 64 from N_0]; exact h⟩

/-- The window's block index at grid point `t` is (t, 0, 0): one image per point, the other two axes whole. -/
theorem convIndex : ∀ t : Fin cfg0.N, win0_2.index t (0 : Fin 3) = t.val ∧ win0_2.index t (1 : Fin 3) = 0
    ∧ win0_2.index t (2 : Fin 3) = 0 :=
  (by decide +kernel : ∀ t : Fin grid0.N, _)

/-- The array after the region, as ONE function of its index (n, a, b): what the point of image `n` leaves in the
    window's buffer, read at (0, a, b). -/
def convArr : S64x128x3136.Idx → EReal := fun i =>
  (out0_2 (F := Ideal) (iblk0 V c 0 (convPt (i 0).val (i 0).isLt)) (iblk0 V c 1 (convPt (i 0).val (i 0).isLt)) : S1x128x3136.Idx → EReal)
    (ix3 (0 : Fin 1) (⟨(i 1).val, (i 1).isLt⟩ : Fin 128) (⟨(i 2).val, (i 2).isLt⟩ : Fin 3136))

/-- What point `t` writes back is block `t` of that function. -/
theorem convFlushed (t : Fin cfg0.N) :
    (dat0 V c).flushed 2 t = ((cfg0.win 2).blk t).view.read (Elt Ideal) (convArr V c) := by
  show (cfg0.win 2).cut (grid0.coords t) ((dat0 V c).after 2 t) = _
  rw [after0_2]
  obtain ⟨e0, e1, e2⟩ := convIndex t
  funext x
  rw [View.read_apply]
  unfold convArr
  have hx0 : (x 0).val < 1 := (x 0).isLt
  have ht : convPt ((((cfg0.win 2).blk t).view.emb x) 0).val ((((cfg0.win 2).blk t).view.emb x) 0).isLt = t := by
    apply Fin.ext
    show win0_2.index t (0 : Fin 3) * 1 + 1 * (x 0).val = t.val
    omega
  have hx : ix3 (0 : Fin 1) (⟨((((cfg0.win 2).blk t).view.emb x) 1).val, ((((cfg0.win 2).blk t).view.emb x) 1).isLt⟩ : Fin 128)
      (⟨((((cfg0.win 2).blk t).view.emb x) 2).val, ((((cfg0.win 2).blk t).view.emb x) 2).isLt⟩ : Fin 3136) = x := by
    funext a; apply Fin.ext
    match a with
    | ⟨0, _⟩ => show 0 = (x 0).val; omega
    | ⟨1, _⟩ => show win0_2.index t (1 : Fin 3) * 128 + 1 * (x 1).val = (x 1).val; omega
    | ⟨2, _⟩ => show win0_2.index t (2 : Fin 3) * 3136 + 1 * (x 2).val = (x 2).val; omega
  rw [ht, hx]
  -- the write-back's re-indexing of the buffer is the identity, and the view's element type is the array's
  refine Eq.trans ?_ (cast_eq _ _).symm
  exact congrArg (out0_2 (F := Ideal) (iblk0 V c 0 t) (iblk0 V c 1 t) : S1x128x3136.Idx → EReal) (funext fun a => Fin.ext rfl)

/-- Every index of the array lies in the block of its image's point. -/
theorem convCover (i : S64x128x3136.Idx) :
    ∃ t : Fin cfg0.N, (cfg0.win 2).flush t = true ∧ i ∈ ((cfg0.win 2).blk t).view.set := by
  refine ⟨convPt (i 0).val (i 0).isLt, flush0_2 _, ?_⟩
  obtain ⟨e0, e1, e2⟩ := convIndex (convPt (i 0).val (i 0).isLt)
  have h := ((cfg0.win 2).blk (convPt (i 0).val (i 0).isLt)).view.emb_mem_set
    (ix3 (0 : Fin 1) (⟨(i 1).val, (i 1).isLt⟩ : Fin 128) (⟨(i 2).val, (i 2).isLt⟩ : Fin 3136))
  have e : ((cfg0.win 2).blk (convPt (i 0).val (i 0).isLt)).view.emb
      (ix3 (0 : Fin 1) (⟨(i 1).val, (i 1).isLt⟩ : Fin 128) (⟨(i 2).val, (i 2).isLt⟩ : Fin 3136)) = i := by
    funext a; apply Fin.ext
    match a with
    | ⟨0, _⟩ => show win0_2.index (convPt (i 0).val (i 0).isLt) (0 : Fin 3) * 1 + 1 * 0 = (i 0).val
                rw [e0]; show (i 0).val * 1 + 1 * 0 = (i 0).val; omega
    | ⟨1, _⟩ => show win0_2.index (convPt (i 0).val (i 0).isLt) (1 : Fin 3) * 128 + 1 * (i 1).val = (i 1).val
                rw [e1]; omega
    | ⟨2, _⟩ => show win0_2.index (convPt (i 0).val (i 0).isLt) (2 : Fin 3) * 3136 + 1 * (i 2).val = (i 2).val
                rw [e2]; omega
  rw [e] at h
  exact h

/-- The array after the region IS that function. -/
theorem convEq : ((dat0 V c).arrAt 2 cfg0.N : S64x128x3136.Idx → EReal) = convArr V c :=
  (dat0 V c).arrAt_eq_of_cover 2 (convArr V c) (fun t _ => convFlushed V c t) convCover

end Cert.KernelIdeal.KValue

end
-- ==== Proof.KernelActArray.lean ====
/-
  The second region's output array: the normalised, rectified activations, [64, 128, 3136] = (image, output channel,
  position). Point n leaves its image's [1, 128, 3136] block in the window's buffer and writes it back to rows
  (n, ·, ·); the 64 blocks tile the array, so the array after the region is one function of its index.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

/-- The grid point that handles image `n`. -/
def actPt (n : Nat) (h : n < 64) : Fin cfg1.N := ⟨n, by rw [show cfg1.N = 64 from N_1]; exact h⟩

/-- The window's block index at grid point `t` is (t, 0, 0): one image per point, the other two axes whole. -/
theorem actIndex : ∀ t : Fin cfg1.N, win1_3.index t (0 : Fin 3) = t.val ∧ win1_3.index t (1 : Fin 3) = 0
    ∧ win1_3.index t (2 : Fin 3) = 0 :=
  (by decide +kernel : ∀ t : Fin grid1.N, _)

/-- The array after the region, as ONE function of its index (n, a, b): what the point of image `n` leaves in the
    window's buffer, read at (0, a, b). -/
def actArr : S64x128x3136.Idx → EReal := fun i =>
  (out1_3 (F := Ideal) (iblk1 V c 0 (actPt (i 0).val (i 0).isLt)) (iblk1 V c 1 (actPt (i 0).val (i 0).isLt)) (iblk1 V c 2 (actPt (i 0).val (i 0).isLt)) : S1x128x3136.Idx → EReal)
    (ix3 (0 : Fin 1) (⟨(i 1).val, (i 1).isLt⟩ : Fin 128) (⟨(i 2).val, (i 2).isLt⟩ : Fin 3136))

/-- What point `t` writes back is block `t` of that function. -/
theorem actFlushed (t : Fin cfg1.N) :
    (dat1 V c).flushed 3 t = ((cfg1.win 3).blk t).view.read (Elt Ideal) (actArr V c) := by
  show (cfg1.win 3).cut (grid1.coords t) ((dat1 V c).after 3 t) = _
  rw [after1_3]
  obtain ⟨e0, e1, e2⟩ := actIndex t
  funext x
  rw [View.read_apply]
  unfold actArr
  have hx0 : (x 0).val < 1 := (x 0).isLt
  have ht : actPt ((((cfg1.win 3).blk t).view.emb x) 0).val ((((cfg1.win 3).blk t).view.emb x) 0).isLt = t := by
    apply Fin.ext
    show win1_3.index t (0 : Fin 3) * 1 + 1 * (x 0).val = t.val
    omega
  have hx : ix3 (0 : Fin 1) (⟨((((cfg1.win 3).blk t).view.emb x) 1).val, ((((cfg1.win 3).blk t).view.emb x) 1).isLt⟩ : Fin 128)
      (⟨((((cfg1.win 3).blk t).view.emb x) 2).val, ((((cfg1.win 3).blk t).view.emb x) 2).isLt⟩ : Fin 3136) = x := by
    funext a; apply Fin.ext
    match a with
    | ⟨0, _⟩ => show 0 = (x 0).val; omega
    | ⟨1, _⟩ => show win1_3.index t (1 : Fin 3) * 128 + 1 * (x 1).val = (x 1).val; omega
    | ⟨2, _⟩ => show win1_3.index t (2 : Fin 3) * 3136 + 1 * (x 2).val = (x 2).val; omega
  rw [ht, hx]
  -- the write-back's re-indexing of the buffer is the identity, and the view's element type is the array's
  refine Eq.trans ?_ (cast_eq _ _).symm
  exact congrArg (out1_3 (F := Ideal) (iblk1 V c 0 t) (iblk1 V c 1 t) (iblk1 V c 2 t) : S1x128x3136.Idx → EReal) (funext fun a => Fin.ext rfl)

/-- Every index of the array lies in the block of its image's point. -/
theorem actCover (i : S64x128x3136.Idx) :
    ∃ t : Fin cfg1.N, (cfg1.win 3).flush t = true ∧ i ∈ ((cfg1.win 3).blk t).view.set := by
  refine ⟨actPt (i 0).val (i 0).isLt, flush1_3 _, ?_⟩
  obtain ⟨e0, e1, e2⟩ := actIndex (actPt (i 0).val (i 0).isLt)
  have h := ((cfg1.win 3).blk (actPt (i 0).val (i 0).isLt)).view.emb_mem_set
    (ix3 (0 : Fin 1) (⟨(i 1).val, (i 1).isLt⟩ : Fin 128) (⟨(i 2).val, (i 2).isLt⟩ : Fin 3136))
  have e : ((cfg1.win 3).blk (actPt (i 0).val (i 0).isLt)).view.emb
      (ix3 (0 : Fin 1) (⟨(i 1).val, (i 1).isLt⟩ : Fin 128) (⟨(i 2).val, (i 2).isLt⟩ : Fin 3136)) = i := by
    funext a; apply Fin.ext
    match a with
    | ⟨0, _⟩ => show win1_3.index (actPt (i 0).val (i 0).isLt) (0 : Fin 3) * 1 + 1 * 0 = (i 0).val
                rw [e0]; show (i 0).val * 1 + 1 * 0 = (i 0).val; omega
    | ⟨1, _⟩ => show win1_3.index (actPt (i 0).val (i 0).isLt) (1 : Fin 3) * 128 + 1 * (i 1).val = (i 1).val
                rw [e1]; omega
    | ⟨2, _⟩ => show win1_3.index (actPt (i 0).val (i 0).isLt) (2 : Fin 3) * 3136 + 1 * (i 2).val = (i 2).val
                rw [e2]; omega
  rw [e] at h
  exact h

/-- The array after the region IS that function. -/
theorem actEq : ((dat1 V c).arrAt 3 cfg1.N : S64x128x3136.Idx → EReal) = actArr V c :=
  (dat1 V c).arrAt_eq_of_cover 3 (actArr V c) (fun t _ => actFlushed V c t) actCover

end Cert.KernelIdeal.KValue

end
-- ==== Proof.KernelAccum.lean ====
/-
  The first region's arithmetic at one grid point. The body loads nine shifted 56×56×64 windows of the padded image
  (one per tap), flattens each to a [3136, 64] matrix, lays the nine side by side into [3136, 576], and multiplies by
  the [576, 128] weight block in ONE matrix product into a zero accumulator. Entry (p, o) of that product is the sum
  over k < 576 of (tap k/64 at (p, k%64)) · (weights at (k, o)): the accumulator of ConvSum, once the weight block's
  row 64·t + c is known to be the weight stack's (t, c).
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSum
import proofs.«103070_g2000601905423008_pallasbulk_286_2_alg».proof.Proof.LibPlainDot
set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

/-- The nine tap matrices of an image block, in the order the body concatenates them. -/
def taps (x0 : Vec Ideal S1x58x58x64 .bf16) : Fin 9 → S3136x64.Idx → EReal :=
  ![k0_pay5 (F := Ideal) (View.ld x0 r0_0), k0_pay6 (F := Ideal) (View.ld x0 r0_1), k0_pay7 (F := Ideal) (View.ld x0 r0_2),
    k0_pay8 (F := Ideal) (View.ld x0 r0_3), k0_pay9 (F := Ideal) (View.ld x0 r0_4), k0_pay10 (F := Ideal) (View.ld x0 r0_5),
    k0_pay11 (F := Ideal) (View.ld x0 r0_6), k0_pay12 (F := Ideal) (View.ld x0 r0_7),
    shapeCast S3136x64 (shapeCast S56x56x64 (View.ld x0 r0_8) shapeCasts_S1x56x56x64_S56x56x64) shapeCasts_S56x56x64_S3136x64]

/-- The body's matrix product is the accumulator: zero plus the nine taps' contractions over the input channels. -/
theorem accum_eq (x0 : Vec Ideal S1x58x58x64 .bf16) (x1 : Vec Ideal S576x128 .bf16) (w : ConvSum.WStack.Idx → EReal)
    (hw : ∀ (t : Fin 9) (c : Fin 64) (o : Fin 128) (k : Fin 576), k.val = 64 * t.val + c.val →
      (x1 : S576x128.Idx → EReal) (ix2 k o) = w (ix3 t c o)) :
    (k0_pay1 (F := Ideal) (k0_pay5 (View.ld x0 r0_0)) (k0_pay6 (View.ld x0 r0_1)) (k0_pay7 (View.ld x0 r0_2))
        (k0_pay8 (View.ld x0 r0_3)) (k0_pay9 (View.ld x0 r0_4)) (k0_pay10 (View.ld x0 r0_5)) (k0_pay11 (View.ld x0 r0_6))
        (k0_pay12 (View.ld x0 r0_7)) (View.ld x0 r0_8) (View.ld x1 r0_9) : S3136x128.Idx → EReal)
      = ConvSum.acc (taps x0) w := by
  funext j
  unfold k0_pay1
  refine (PlainDot.matmul_zero_apply 3136 576 128 none _ _ j).trans ?_
  refine ConvSum.long_sum_eq (taps x0) w _ _ ?_ ?_ j
  · intro p t c k hk
    show concatenate S3136x576 1 (List.ofFn fun n : Fin 9 => (⟨S3136x64, taps x0 n⟩ : (s : Shape) × (s.Idx → EReal))) _ (ix2 p k)
      = taps x0 t (ix2 p c)
    refine concatenate_ofFn_apply (t := S3136x576) (s₁ := S3136x64) (1 : Fin 2) (taps x0) _ rfl 64 rfl (ix2 p k) t ?_ (ix2 p c) ?_ ?_
    · show k.val / 64 = t.val
      have := c.isLt; omega
    · show c.val = k.val % 64
      have := c.isLt; omega
    · intro b hb
      match b with
      | ⟨0, _⟩ => rfl
      | ⟨1, _⟩ => exact absurd rfl hb
  · intro t c o k hk
    have hz : (![0, 0] : Fin 2 → Nat) = fun _ => 0 := funext fun a => by fin_cases a <;> rfl
    show shapeCast S576x128 (View.ld x1 r0_9) shapeCasts_S576x128_S576x128 (ix2 k o) = w (ix3 t c o)
    simp only [View.ld_unit_zero (S := S576x128) hz]
    exact (congrFun (shapeCast_self (s := S576x128) (x1 : S576x128.Idx → EReal) shapeCasts_S576x128_S576x128) (ix2 k o)).trans (hw t c o k hk)

end Cert.KernelIdeal.KValue

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.KernelPayloads.lean ====
/-
  What the two kernel bodies leave in their output buffers, read at an index.
  First region: the conv buffer [1, 128, 3136] holds the accumulator transposed — entry (0, o, p) is the accumulator's
  (p, o) (the narrowing of the float format is the identity on extended reals) —, and the statistics buffer [1, 2, 128]
  is a function of the accumulator alone: its column sums in row 0, the column sums of its squares in row 1.
  Second region: entry (0, o, p) of the output buffer is max(y(0, o, p) · scale(o) + shift(o), 0), the scale and shift
  columns [128, 1] broadcast along the positions.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.LibColumnBroadcast
set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The first region's accumulator at a grid point, from the image block and the weight block. -/
abbrev accum (x0 : Vec Ideal S1x58x58x64 .bf16) (x1 : Vec Ideal S576x128 .bf16) : S3136x128.Idx → EReal :=
  k0_pay1 (F := Ideal) (k0_pay5 (View.ld x0 r0_0)) (k0_pay6 (View.ld x0 r0_1)) (k0_pay7 (View.ld x0 r0_2))
    (k0_pay8 (View.ld x0 r0_3)) (k0_pay9 (View.ld x0 r0_4)) (k0_pay10 (View.ld x0 r0_5)) (k0_pay11 (View.ld x0 r0_6))
    (k0_pay12 (View.ld x0 r0_7)) (View.ld x0 r0_8) (View.ld x1 r0_9)

/-- The conv buffer after the body: the accumulator, transposed. -/
theorem conv_block_apply (x0 : Vec Ideal S1x58x58x64 .bf16) (x1 : Vec Ideal S576x128 .bf16) (o : Fin 128) (p : Fin 3136) :
    (out0_2 (F := Ideal) x0 x1 : S1x128x3136.Idx → EReal) (ix3 (0 : Fin 1) o p) = accum x0 x1 (ix2 p o) := by
  unfold out0_2
  rw [View.canon_unit_zero hz3]
  unfold k0_pay4
  refine (shapeCast_ab_1ab_apply _ _ (0 : Fin 1) o p).trans ?_
  refine (transpose_apply (s := S3136x128) (t := S128x3136) [1, 0] _ _ (ix2 o p) (ix2 p o) fun b => ?_).trans ?_
  · match b with
    | ⟨0, _⟩ => rfl
    | ⟨1, _⟩ => rfl
  · rfl

/-- The statistics buffer as a function of an accumulator: row 0 its column sums, row 1 the column sums of its
    squares (the two row stores, last first). -/
def statsBlock (a : S3136x128.Idx → EReal) : S1x2x128.Idx → EReal :=
  View.canon
    ([⟨r0_11, shapeCast S1x1x128 (shapeCast S1x128 (multiReduction (F := Ideal) .add [0] S128 (mulf (F := Ideal) (φ := .f32) a a) 0x00000000#32 reduces_S3136x128_S128 (.inl rfl) rfl) shapeCasts_S128_S1x128) shapeCasts_S1x128_S1x1x128⟩,
     ⟨r0_10, shapeCast S1x1x128 (shapeCast S1x128 (multiReduction (F := Ideal) (φ := .f32) .add [0] S128 a 0x00000000#32 reduces_S3136x128_S128 (.inl rfl) rfl) shapeCasts_S128_S1x128) shapeCasts_S1x128_S1x1x128⟩] : List (View.Piece (Elt Ideal) S1x2x128 .f32))

/-- The statistics buffer after the body is that function of the accumulator. -/
theorem stats_block_eq (x0 : Vec Ideal S1x58x58x64 .bf16) (x1 : Vec Ideal S576x128 .bf16) :
    (out0_3 (F := Ideal) x0 x1 : S1x2x128.Idx → EReal) = statsBlock (accum x0 x1) := rfl

/-- The second region's output buffer at (0, o, p): scale, shift, rectify. -/
theorem act_block_apply (x0 : Vec Ideal S1x128x3136 .bf16) (x1 x2 : Vec Ideal S128x1 .f32) (o : Fin 128) (p : Fin 3136) :
    (out1_3 (F := Ideal) x0 x1 x2 : S1x128x3136.Idx → EReal) (ix3 (0 : Fin 1) o p)
      = max ((x0 : S1x128x3136.Idx → EReal) (ix3 (0 : Fin 1) o p) * (x1 : S128x1.Idx → EReal) (ix2 o (0 : Fin 1))
          + (x2 : S128x1.Idx → EReal) (ix2 o (0 : Fin 1))) (Scalar.ofBits (F := Ideal) .f32 0x00000000#32) := by
  unfold out1_3
  rw [View.canon_unit_zero hz3]
  simp only [View.ld_unit_zero (S := S1x128x3136) hz3, View.ld_unit_zero (S := S128x1) hz2]
  unfold k1_pay1
  refine (shapeCast_ab_1ab_apply _ _ (0 : Fin 1) o p).trans ?_
  show max ((shapeCast S128x3136 (x0 : S1x128x3136.Idx → EReal) shapeCasts_S1x128x3136_S128x3136 (ix2 o p))
        * (broadcastTo S128x3136 (shapeCast S128x1 (x1 : S128x1.Idx → EReal) shapeCasts_S128x1_S128x1) broadcasts_S128x1_S128x3136 (ix2 o p))
      + (broadcastTo S128x3136 (shapeCast S128x1 (x2 : S128x1.Idx → EReal) shapeCasts_S128x1_S128x1) broadcasts_S128x1_S128x3136 (ix2 o p)))
      (Scalar.ofBits (F := Ideal) .f32 0x00000000#32) = _
  rw [shapeCast_1ab_ab_apply, ColumnBroadcast.apply, ColumnBroadcast.apply, shapeCast_self, shapeCast_self]

end Cert.KernelIdeal.KValue

end
-- ==== Proof.KernelBlocks.lean ====
/-
  The blocks the two regions' bodies are handed at a grid point, as functions of the arrays the region finds.
  First region, point t: the image window holds image t's padded block; the weight window holds the whole [576, 128]
  weight array (its index map is constant). Second region, point t: the conv window holds image t's [1, 128, 3136]
  block; the scale and shift windows hold their whole [128, 1] columns.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSpec
set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

theorem index0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem index0_1 : ∀ t : Fin cfg0.N, win0_1.index t (0 : Fin 2) = 0 ∧ win0_1.index t (1 : Fin 2) = 0 :=
  (by decide +kernel : ∀ t : Fin grid0.N, _)
theorem index1_0 : ∀ t : Fin cfg1.N, win1_0.index t (0 : Fin 3) = t.val ∧ win1_0.index t (1 : Fin 3) = 0
    ∧ win1_0.index t (2 : Fin 3) = 0 :=
  (by decide +kernel : ∀ t : Fin grid1.N, _)
theorem index1_1 : ∀ t : Fin cfg1.N, win1_1.index t (0 : Fin 2) = 0 ∧ win1_1.index t (1 : Fin 2) = 0 :=
  (by decide +kernel : ∀ t : Fin grid1.N, _)
theorem index1_2 : ∀ t : Fin cfg1.N, win1_2.index t (0 : Fin 2) = 0 ∧ win1_2.index t (1 : Fin 2) = 0 :=
  (by decide +kernel : ∀ t : Fin grid1.N, _)

theorem pt0_lt (t : Fin cfg0.N) : t.val < 64 := lt_of_lt_of_eq t.isLt N_0
theorem pt1_lt (t : Fin cfg1.N) : t.val < 64 := lt_of_lt_of_eq t.isLt N_1

/-- First region, image window: image `t`'s padded block of the image array. -/
theorem image_block (t : Fin cfg0.N) :
    (iblk0 V c 0 t : S1x58x58x64.Idx → EReal)
      = ConvSpec.imageBlock (V c main_call0_v2 : S64x58x58x64.Idx → EReal) t.val (pt0_lt t) := by
  obtain ⟨e0, e1, e2, e3⟩ := index0_0 t
  funext y
  unfold iblk0
  rw [View.read_apply]
  refine (cast_eq _ _).trans ?_
  unfold ConvSpec.imageBlock
  have h0 : (y 0).val < 1 := (y 0).isLt
  refine congrArg (V c main_call0_v2 : S64x58x58x64.Idx → EReal) (funext fun a => Fin.ext ?_)
  match a with
  | ⟨0, _⟩ => show win0_0.index t (0 : Fin 4) * 1 + 1 * (y 0).val = t.val; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 64 + 1 * (y 3).val = (y 3).val; omega

/-- First region, weight window: the whole weight array. -/
theorem weight_block (t : Fin cfg0.N) : (iblk0 V c 1 t : S576x128.Idx → EReal) = V c main_call0_v5 := by
  obtain ⟨e0, e1⟩ := index0_1 t
  funext y
  unfold iblk0
  rw [View.read_apply]
  refine (cast_eq _ _).trans ?_
  refine congrArg (V c main_call0_v5 : S576x128.Idx → EReal) (funext fun a => Fin.ext ?_)
  match a with
  | ⟨0, _⟩ => show win0_1.index t (0 : Fin 2) * 576 + 1 * (y 0).val = (y 0).val; omega
  | ⟨1, _⟩ => show win0_1.index t (1 : Fin 2) * 128 + 1 * (y 1).val = (y 1).val; omega

/-- Second region, scale window: the whole scale column. -/
theorem scale_block (t : Fin cfg1.N) : (iblk1 V c 1 t : S128x1.Idx → EReal) = V c main_call0_v27 := by
  obtain ⟨e0, e1⟩ := index1_1 t
  funext y
  unfold iblk1
  rw [View.read_apply]
  refine (cast_eq _ _).trans ?_
  refine congrArg (V c main_call0_v27 : S128x1.Idx → EReal) (funext fun a => Fin.ext ?_)
  match a with
  | ⟨0, _⟩ => show win1_1.index t (0 : Fin 2) * 128 + 1 * (y 0).val = (y 0).val; omega
  | ⟨1, _⟩ => show win1_1.index t (1 : Fin 2) * 1 + 1 * (y 1).val = (y 1).val; omega

/-- Second region, shift window: the whole shift column. -/
theorem shift_block (t : Fin cfg1.N) : (iblk1 V c 2 t : S128x1.Idx → EReal) = V c main_call0_v28 := by
  obtain ⟨e0, e1⟩ := index1_2 t
  funext y
  unfold iblk1
  rw [View.read_apply]
  refine (cast_eq _ _).trans ?_
  refine congrArg (V c main_call0_v28 : S128x1.Idx → EReal) (funext fun a => Fin.ext ?_)
  match a with
  | ⟨0, _⟩ => show win1_2.index t (0 : Fin 2) * 128 + 1 * (y 0).val = (y 0).val; omega
  | ⟨1, _⟩ => show win1_2.index t (1 : Fin 2) * 1 + 1 * (y 1).val = (y 1).val; omega

/-- Second region, conv window: entry (0, o, p) of point `t`'s block is entry (t, o, p) of the conv array. -/
theorem conv_block_apply' (t : Fin cfg1.N) (o : Fin 128) (p : Fin 3136) :
    (iblk1 V c 0 t : S1x128x3136.Idx → EReal) (ix3 (0 : Fin 1) o p)
      = (V c main_call0_v6_0 : S64x128x3136.Idx → EReal) (ix3 (⟨t.val, pt1_lt t⟩ : Fin 64) o p) := by
  obtain ⟨e0, e1, e2⟩ := index1_0 t
  unfold iblk1
  rw [View.read_apply]
  refine (cast_eq _ _).trans ?_
  refine congrArg (V c main_call0_v6_0 : S64x128x3136.Idx → EReal) (funext fun a => Fin.ext ?_)
  match a with
  | ⟨0, _⟩ => show win1_0.index t (0 : Fin 3) * 1 + 1 * 0 = t.val; omega
  | ⟨1, _⟩ => show win1_0.index t (1 : Fin 3) * 128 + 1 * o.val = o.val; omega
  | ⟨2, _⟩ => show win1_0.index t (2 : Fin 3) * 3136 + 1 * p.val = p.val; omega

end Cert.KernelIdeal.KValue

end
-- ==== Proof.KernelMiddle.lean ====
/-
  Between the two regions. The host reduces the per-image statistics [64, 2, 128] over the 64 images, divides by the
  number of positions 64·3136 = 200704 to get each channel's mean and mean square, forms the biased variance
  max(E[y²] − E[y]², 0), and from it scale = gamma · rsqrt(var + eps) and shift = beta − mean · scale, each handed
  to the second region as a [128, 1] column. The conv array reaches the second region as the first region left it.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- Per-channel mean of the conv output, from the statistics array's row 0. -/
def meanOf (stats : S64x2x128.Idx → EReal) : S128.Idx → EReal :=
  Host.divf (F := Ideal) (φ := .f32)
    (Host.reduceAdd (F := Ideal) (φ := .f32)
      (shapeCast S64x128 (extractStridedSlice S64x1x128 ![0, 0, 0] stats slices_S64x2x128_S64x1x128_0_0_0) shapeCasts_S64x1x128_S64x128)
      (constant (F := Ideal) S_ .f32 0x00000000#32) reducesTo_S64x128_S128_d0 h_S_)
    (broadcastInDim S128 ![] bcast_S_S128 (constant (F := Ideal) S_ .f32 0x48440000#32))

/-- Per-channel mean square, from row 1. -/
def meanSqOf (stats : S64x2x128.Idx → EReal) : S128.Idx → EReal :=
  Host.divf (F := Ideal) (φ := .f32)
    (Host.reduceAdd (F := Ideal) (φ := .f32)
      (shapeCast S64x128 (extractStridedSlice S64x1x128 ![0, 1, 0] stats slices_S64x2x128_S64x1x128_0_1_0) shapeCasts_S64x1x128_S64x128)
      (constant (F := Ideal) S_ .f32 0x00000000#32) reducesTo_S64x128_S128_d0 h_S_)
    (broadcastInDim S128 ![] bcast_S_S128 (constant (F := Ideal) S_ .f32 0x48440000#32))

/-- scale = gamma · rsqrt(max(E[y²] − E[y]², 0) + eps). -/
def scaleOf (stats : S64x2x128.Idx → EReal) (gamma : S128.Idx → EReal) : S128.Idx → EReal :=
  mulf (F := Ideal) (φ := .f32) gamma
    (Host.rsqrt (F := Ideal) (φ := .f32)
      (addf (F := Ideal) (φ := .f32)
        (maximumf (F := Ideal) (φ := .f32)
          (subf (F := Ideal) (φ := .f32) (meanSqOf stats) (mulf (F := Ideal) (φ := .f32) (meanOf stats) (meanOf stats)))
          (broadcastInDim S128 ![] bcast_S_S128 (constant (F := Ideal) S_ .f32 0x00000000#32)))
        (broadcastInDim S128 ![] bcast_S_S128 (constant (F := Ideal) S_ .f32 0x3727C5AC#32))))

/-- shift = beta − mean · scale. -/
def shiftOf (stats : S64x2x128.Idx → EReal) (gamma beta : S128.Idx → EReal) : S128.Idx → EReal :=
  subf (F := Ideal) (φ := .f32) beta (mulf (F := Ideal) (φ := .f32) (meanOf stats) (scaleOf stats gamma))

theorem W2_stats : (Gen.W2 (F := Ideal) m ρ c (Proc.devRef .tc main_call0_v6_1)) = (Gen.dat0 (Gen.V1 m ρ) c).arrAt 3 cfg0.N :=
  Gen.W2_arr m ρ c 3

theorem W2_gamma : (Gen.W2 (F := Ideal) m ρ c (Proc.devRef .tc main_arg2)) = m ((c : Thread nD τ).loc main_arg2) :=
  (Gen.W2_of_ne m ρ c main_arg2 (by decide)).trans (by dsimp only [Gen.W1, Gen.hostOps0]; after_results)

theorem W2_beta : (Gen.W2 (F := Ideal) m ρ c (Proc.devRef .tc main_arg3)) = m ((c : Thread nD τ).loc main_arg3) :=
  (Gen.W2_of_ne m ρ c main_arg3 (by decide)).trans (by dsimp only [Gen.W1, Gen.hostOps0]; after_results)

/-- The conv array enters the second region as the first region left it. -/
theorem V3_conv : (Gen.V3 (F := Ideal) m ρ c main_call0_v6_0) = (Gen.dat0 (Gen.V1 m ρ) c).arrAt 2 cfg0.N := by
  have h : Gen.V3 (F := Ideal) m ρ c main_call0_v6_0 = Gen.W2 (F := Ideal) m ρ c (Proc.devRef .tc main_call0_v6_0) := by
    dsimp only [Gen.V3, Gen.W3, Gen.hostOps1]; after_results_simp
  exact h.trans (Gen.W2_arr m ρ c 2)

/-- The scale column the second region is entered with. -/
theorem V3_scale : (Gen.V3 (F := Ideal) m ρ c main_call0_v27 : S128x1.Idx → EReal)
    = shapeCast S128x1 (scaleOf ((Gen.dat0 (Gen.V1 m ρ) c).arrAt 3 cfg0.N) (m ((c : Thread nD τ).loc main_arg2))) shapeCasts_S128_S128x1 := by
  dsimp only [Gen.V3, Gen.W3, Gen.hostOps1]
  after_results_simp
  rw [W2_stats, W2_gamma]
  rfl

/-- The shift column the second region is entered with. -/
theorem V3_shift : (Gen.V3 (F := Ideal) m ρ c main_call0_v28 : S128x1.Idx → EReal)
    = shapeCast S128x1 (shiftOf ((Gen.dat0 (Gen.V1 m ρ) c).arrAt 3 cfg0.N) (m ((c : Thread nD τ).loc main_arg2))
        (m ((c : Thread nD τ).loc main_arg3))) shapeCasts_S128_S128x1 := by
  dsimp only [Gen.V3, Gen.W3, Gen.hostOps1]
  after_results_simp
  rw [W2_stats, W2_gamma, W2_beta]
  rfl

end Cert.KernelIdeal.KValue

end
-- ==== Proof.LibReshape.lean ====
/-
  Two reshapes in a row are one: a reshape matches multi-indices by row-major position, so going through a third shape
  matches directly.
-/
import Idealize.ShloMosaic.Lib.Pipeline.Value

namespace Reshape

open Idealize.ShloMosaic

/-- Reshaping to `t` and then to `u` is reshaping to `u`. -/
theorem shapeCast_shapeCast_eq {s t u : Shape} {α : Type} (x : s.Idx → α) (h : s.ShapeCasts t) (h' : t.ShapeCasts u)
    (h'' : s.ShapeCasts u) : shapeCast u (shapeCast t x h) h' = shapeCast u x h'' :=
  funext fun j => congrArg x (Shape.reshapeEquiv_reshapeEquiv h h' j)

end Reshape
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.KernelWeights.lean ====
/-
  The weights as the convolution reads them. Both programs first reorder the [128, 64, 3, 3] weights to
  (tap row, tap column, input channel, output channel). Reshaped to [9, 64, 128] that is the weight STACK: slab
  t = 3·ki + kj is tap (ki, kj)'s [64, 128] matrix. Reshaped to [576, 128] — what this program's region is handed —
  row 64·t + c is the stack's row c of slab t: a reshape keeps row-major positions.
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSum
import proofs.«103070_g2000601905423008_pallasbulk_286_2_alg».proof.Proof.LibReshape
import proofs.«103070_g2000601905423008_pallasbulk_286_2_alg».proof.Proof.LibFlattenRows
set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

theorem stack_casts : S3x3x64x128.ShapeCasts ConvSum.WStack := by decide
theorem stack_flattens : ConvSum.WStack.ShapeCasts S576x128 := by decide

/-- The weight stack [9, 64, 128] of reordered weights `T`. -/
def weightStack (T : S3x3x64x128.Idx → EReal) : ConvSum.WStack.Idx → EReal := shapeCast ConvSum.WStack T stack_casts

/-- Row 64·t + c of the flattened weights is row c of slab t of the stack. -/
theorem flat_weights_apply (T : S3x3x64x128.Idx → EReal) (t : Fin 9) (c : Fin 64) (o : Fin 128) (k : Fin 576)
    (hk : k.val = 64 * t.val + c.val) :
    shapeCast S576x128 T shapeCasts_S3x3x64x128_S576x128 (ix2 k o) = weightStack T (ix3 t c o) := by
  rw [← Reshape.shapeCast_shapeCast_eq T stack_casts stack_flattens shapeCasts_S3x3x64x128_S576x128]
  exact Cert.FlattenRows.flatten_apply (a := 9) (b := 64) (c := 128) (n := 576) (shapeCast ConvSum.WStack T stack_casts)
    stack_flattens t c o k (by omega)

end Cert.KernelIdeal.KValue

end
-- ==== Proof.KernelValue.lean ====
/-
  The program's result at an index, in closed form. With X the padded channels-last image array, w the [9, 64, 128]
  weight stack, and for image n the accumulator A_n = ConvSum.acc (taps of image n's block) w:
    result(n, o, i, j) = max( A_n(56·i + j, o) · scale(o) + shift(o), 0 ),
  where scale and shift are the host's per-channel chain applied to the statistics array
  S(n, r, o) = statsBlock(A_n)(0, r, o) (column sums and column sums of squares of every image's accumulator).
-/
import proofs.«103070_g2000601905423008_pallasbulk_286_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSum
import proofs.«103070_g2000601905423008_pallasbulk_286_2_alg».proof.Proof.ConvSpec
import proofs.«103070_g2000601905423008_pallasbulk_286_2_alg».proof.Proof.KernelEntry
import proofs.«103070_g2000601905423008_pallasbulk_286_2_alg».proof.Proof.KernelExit
import proofs.«103070_g2000601905423008_pallasbulk_286_2_alg».proof.Proof.KernelStatsArray
import proofs.«103070_g2000601905423008_pallasbulk_286_2_alg».proof.Proof.KernelConvArray
import proofs.«103070_g2000601905423008_pallasbulk_286_2_alg».proof.Proof.KernelActArray
import proofs.«103070_g2000601905423008_pallasbulk_286_2_alg».proof.Proof.KernelAccum
import proofs.«103070_g2000601905423008_pallasbulk_286_2_alg».proof.Proof.KernelPayloads
import proofs.«103070_g2000601905423008_pallasbulk_286_2_alg».proof.Proof.KernelBlocks
import proofs.«103070_g2000601905423008_pallasbulk_286_2_alg».proof.Proof.KernelMiddle
import proofs.«103070_g2000601905423008_pallasbulk_286_2_alg».proof.Proof.KernelWeights
set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The padded channels-last image array, as the host operations before the first region spell it. -/
abbrev imageOf (x : S64x64x56x56.Idx → EReal) : S64x58x58x64.Idx → EReal :=
  pad S64x58x58x64 ![0, 1, 1, 0] ![0, 1, 1, 0] ![0, 0, 0, 0]
    (transpose S64x56x56x64 [0, 2, 3, 1] (truncf (F := Ideal) .bf16 x bitsLt_bf16_f32) transposes_S64x64x56x56_S64x56x56x64_0_2_3_1)
    (sitofp (F := Ideal) .bf16 (constantI S_ 32 0#32)) pads_S64x56x56x64_S64x58x58x64_000_110_110_000 h_S_

/-- The reordered weights (tap row, tap column, input channel, output channel). -/
abbrev kernelsOf (W : S128x64x3x3.Idx → EReal) : S3x3x64x128.Idx → EReal :=
  transpose S3x3x64x128 [2, 3, 1, 0] (truncf (F := Ideal) .bf16 W bitsLt_bf16_f32) transposes_S128x64x3x3_S3x3x64x128_2_3_1_0

/-- Image `n`'s accumulator. -/
def accOf (X : S64x58x58x64.Idx → EReal) (w : ConvSum.WStack.Idx → EReal) (n : Nat) (hn : n < 64) : S3136x128.Idx → EReal :=
  ConvSum.acc (taps (ConvSpec.imageBlock X n hn)) w

/-- The statistics array as a function of the image array and the weight stack. -/
def statsFn (X : S64x58x58x64.Idx → EReal) (w : ConvSum.WStack.Idx → EReal) : S64x2x128.Idx → EReal := fun i =>
  statsBlock (accOf X w (i 0).val (i 0).isLt) (ix3 (0 : Fin 1) (⟨(i 1).val, (i 1).isLt⟩ : Fin 2) (⟨(i 2).val, (i 2).isLt⟩ : Fin 128))

/-- The image array of this launch. -/
abbrev X₀ : S64x58x58x64.Idx → EReal := imageOf (m ((c : Thread nD τ).loc main_arg0))
/-- The weight stack of this launch. -/
abbrev w₀ : ConvSum.WStack.Idx → EReal := weightStack (kernelsOf (m ((c : Thread nD τ).loc main_arg1)))

/-- The first region's accumulator at grid point `t` is image `t`'s accumulator. -/
theorem accum_at (t : Fin cfg0.N) :
    accum (iblk0 (Gen.V1 (F := Ideal) m ρ) c 0 t) (iblk0 (Gen.V1 (F := Ideal) m ρ) c 1 t) = accOf (X₀ m c) (w₀ m c) t.val (pt0_lt t) := by
  refine (accum_eq _ _ (w₀ m c) ?_).trans ?_
  · intro t' c' o k hk
    rw [weight_block, V1_weights]
    exact flat_weights_apply _ t' c' o k hk
  · unfold accOf
    rw [image_block, V1_image]

/-- The statistics array after the first region. -/
theorem stats_array : ((Gen.dat0 (Gen.V1 (F := Ideal) m ρ) c).arrAt 3 cfg0.N : S64x2x128.Idx → EReal) = statsFn (X₀ m c) (w₀ m c) := by
  rw [statsEq]
  funext i
  unfold statsArr statsFn
  rw [stats_block_eq, accum_at]
  rfl

/-- The conv array after the first region, at (n, o, p): image n's accumulator at (p, o). -/
theorem conv_array_apply (n : Fin 64) (o : Fin 128) (p : Fin 3136) :
    ((Gen.dat0 (Gen.V1 (F := Ideal) m ρ) c).arrAt 2 cfg0.N : S64x128x3136.Idx → EReal) (ix3 n o p) = accOf (X₀ m c) (w₀ m c) n.val n.isLt (ix2 p o) := by
  rw [convEq]
  show (out0_2 (F := Ideal) (iblk0 (Gen.V1 (F := Ideal) m ρ) c 0 (convPt n.val n.isLt)) (iblk0 (Gen.V1 (F := Ideal) m ρ) c 1 (convPt n.val n.isLt))
    : S1x128x3136.Idx → EReal) (ix3 (0 : Fin 1) o p) = _
  rw [conv_block_apply, accum_at]
  rfl

/-- A [128] vector reshaped to a [128, 1] column, read at (o, 0). -/
theorem column_apply (v : S128.Idx → EReal) (o : Fin 128) :
    shapeCast S128x1 v shapeCasts_S128_S128x1 (ix2 o (0 : Fin 1)) = v (ix1 o) :=
  shapeCast_apply v shapeCasts_S128_S128x1 _ _ (by
    rw [Shape.rowMajor_val_one, Shape.rowMajor_val_two]
    show o.val = o.val * 1 + 0
    omega)

/-- THE RESULT at (n, o, i, j), p = 56·i + j. -/
theorem result_formula (n : Fin 64) (o : Fin 128) (i j : Fin 56) (p : Fin 3136) (hp : p.val = i.val * 56 + j.val) :
    (Gen.W5 (F := Ideal) m ρ c (Proc.devRef .tc main_v0) : S64x128x56x56.Idx → EReal) (ix4 n o i j)
      = max (accOf (X₀ m c) (w₀ m c) n.val n.isLt (ix2 p o)
              * scaleOf (statsFn (X₀ m c) (w₀ m c)) (m ((c : Thread nD τ).loc main_arg2)) (ix1 o)
            + shiftOf (statsFn (X₀ m c) (w₀ m c)) (m ((c : Thread nD τ).loc main_arg2)) (m ((c : Thread nD τ).loc main_arg3)) (ix1 o))
          (Scalar.ofBits (F := Ideal) .f32 0x00000000#32) := by
  rw [result_apply m ρ c n o i j p hp, actEq]
  show (out1_3 (F := Ideal) (iblk1 (Gen.V3 (F := Ideal) m ρ) c 0 (actPt n.val n.isLt)) (iblk1 (Gen.V3 (F := Ideal) m ρ) c 1 (actPt n.val n.isLt))
      (iblk1 (Gen.V3 (F := Ideal) m ρ) c 2 (actPt n.val n.isLt)) : S1x128x3136.Idx → EReal) (ix3 (0 : Fin 1) o p) = _
  rw [act_block_apply, conv_block_apply', scale_block, shift_block, V3_conv, V3_scale, V3_shift, column_apply, column_apply]
  rw [stats_array]
  have h := conv_array_apply m ρ c n o p
  rw [show (ix3 (⟨(actPt n.val n.isLt).val, pt1_lt (actPt n.val n.isLt)⟩ : Fin 64) o p : S64x128x3136.Idx) = ix3 n o p from rfl, h]

end Cert.KernelIdeal.KValue

end
-- ==== Proof.LibIdentityOps.lean ====
/-
  Two host operations that change nothing, generic in the shapes and the element type. A pad onto the operand's own shape with no low and no interior padding
  has no room for high padding either, so it reads the operand at every index. A broadcast that only inserts a unit
  axis, followed by the reshape that drops that axis again, matches every index with itself: the inserted
  coordinate is 0 and contributes nothing to the row-major position.
-/
import Idealize.ShloMosaic.Lib.Pipeline.Value
import Idealize.ShloMosaic.Lib.KernelVsHost
import Idealize.ShloMosaic.Lib.ValueIdx

noncomputable section

namespace IdentityOps

open Idealize.ShloMosaic Idealize.ShloMosaic.ValueIdx

variable {α : Type}

/-- A pad onto the operand's own shape, with nothing before the entries and nothing between them, is the operand. -/
theorem pad_same_shape_eq {s u : Shape} (lo hi interior : Fin s.rank → Nat) (x : s.Idx → α) (v : u.Idx → α)
    (h : s.Pads lo hi interior s) (hu : 0 < u.numel) (hlo : ∀ a, lo a = 0) (hint : ∀ a, interior a = 0) :
    pad s lo hi interior x v h hu = x :=
  funext fun j => pad_apply_of_inside lo hi interior x v h hu j j fun a => by
    rw [hlo a, hint a]
    show (j a).val = 0 + (j a).val * (0 + 1)
    omega

/-- A rank-4 array given a unit axis after its first axis, then reshaped back to rank 4, is unchanged. -/
theorem shapeCast_broadcastInDim_unit1_eq {a b c d : ℕ} (x : (⟨4, ![a, b, c, d]⟩ : Shape).Idx → α)
    (hb : (⟨4, ![a, b, c, d]⟩ : Shape).BroadcastsInDim ⟨5, ![a, 1, b, c, d]⟩ (![0, 2, 3, 4] : Fin 4 → Fin 5))
    (hc : (⟨5, ![a, 1, b, c, d]⟩ : Shape).ShapeCasts ⟨4, ![a, b, c, d]⟩) :
    shapeCast ⟨4, ![a, b, c, d]⟩ (broadcastInDim ⟨5, ![a, 1, b, c, d]⟩ (![0, 2, 3, 4] : Fin 4 → Fin 5) hb x) hc = x := by
  funext j
  obtain ⟨i0, i1, i2, i3, rfl⟩ : ∃ (i0 : Fin a) (i1 : Fin b) (i2 : Fin c) (i3 : Fin d), j = ix4 i0 i1 i2 i3 :=
    ⟨j 0, j 1, j 2, j 3, eq_ix4 j⟩
  refine (shapeCast_apply _ hc (ix4 i0 i1 i2 i3) (ix5 i0 (0 : Fin 1) i1 i2 i3) ?_).trans ?_
  · rw [Shape.rowMajor_val_five, Shape.rowMajor_val_four]
    show (((i0.val * 1 + 0) * b + i1.val) * c + i2.val) * d + i3.val
      = ((i0.val * b + i1.val) * c + i2.val) * d + i3.val
    rw [Nat.mul_one, Nat.add_zero]
  · refine broadcastInDim_apply _ hb x _ (ix4 i0 i1 i2 i3) fun ax => ?_
    match ax with
    | ⟨0, _⟩ =>
      show i0.val = if a = 1 then 0 else i0.val
      split
      · have := i0.isLt; omega
      · rfl
    | ⟨1, _⟩ =>
      show i1.val = if b = 1 then 0 else i1.val
      split
      · have := i1.isLt; omega
      · rfl
    | ⟨2, _⟩ =>
      show i2.val = if c = 1 then 0 else i2.val
      split
      · have := i2.isLt; omega
      · rfl
    | ⟨3, _⟩ =>
      show i3.val = if d = 1 then 0 else i3.val
      split
      · have := i3.isLt; omega
      · rfl

end IdentityOps

end
-- ==== Proof.RefEntry.lean ====
/-
  What the first region is entered with. The host operations before it leave, in the image window's array, the
  input in channels-last order with one ring of zeros around each 56×56 plane (64 images of 58×58×64); in the weight
  window's array, the weights reordered to (tap row, tap column, input channel, output channel) with the two tap axes
  flattened to 9; and the scale and offset vectors as they were given. Between these there are operations that change
  nothing: pads by zero entries on every side, and a unit axis inserted and reshaped away.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.LibIdentityOps

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen IdentityOps

variable (m : (ℓ : Loc nD τ sig) → Buf (Elt Ideal) ℓ) (ρ : Dev nD → PrngReg) (c : Dev nD)

/-- The image array at the first region's entry: transpose to channels-last, then the ring of zeros. -/
theorem V1_image :
    (Gen.V1 (F := Ideal) m ρ c main_call0_v4 : S64x58x58x64.Idx → EReal)
      = pad S64x58x58x64 ![0, 1, 1, 0] ![0, 1, 1, 0] ![0, 0, 0, 0]
          (transpose S64x56x56x64 [0, 2, 3, 1] (m ((c : Thread nD τ).loc main_arg0))
            transposes_S64x64x56x56_S64x56x56x64_0_2_3_1)
          (sitofp (F := Ideal) .f32 (constantI S_ 32 0#32)) pads_S64x56x56x64_S64x58x58x64_000_110_110_000 h_S_ := by
  have e : (Gen.V1 (F := Ideal) m ρ c main_call0_v4 : S64x58x58x64.Idx → EReal)
      = shapeCast S64x58x58x64
          (broadcastInDim S64x1x58x58x64 ![0, 2, 3, 4] bcast_S64x58x58x64_S64x1x58x58x64_0_2_3_4
            (pad S64x58x58x64 ![0, 0, 0, 0] ![0, 0, 0, 0] ![0, 0, 0, 0]
              (pad S64x58x58x64 ![0, 1, 1, 0] ![0, 1, 1, 0] ![0, 0, 0, 0]
                (transpose S64x56x56x64 [0, 2, 3, 1] (m ((c : Thread nD τ).loc main_arg0))
                  transposes_S64x64x56x56_S64x56x56x64_0_2_3_1)
                (sitofp (F := Ideal) .f32 (constantI S_ 32 0#32)) pads_S64x56x56x64_S64x58x58x64_000_110_110_000 h_S_)
              (sitofp (F := Ideal) .f32 (constantI S_ 32 0#32)) pads_S64x58x58x64_S64x58x58x64_000_000_000_000 h_S_))
          shapeCasts_S64x1x58x58x64_S64x58x58x64 := by
    dsimp only [Gen.V1, Gen.W1, Gen.hostOps0]; after_results; rfl
  rw [e, pad_same_shape_eq _ _ _ _ _ pads_S64x58x58x64_S64x58x58x64_000_000_000_000 h_S_ (by decide) (by decide)]
  exact shapeCast_broadcastInDim_unit1_eq _ _ _

/-- The weight array at the first region's entry: the reordered weights with the two tap axes flattened. -/
theorem V1_weights :
    (Gen.V1 (F := Ideal) m ρ c main_call0_v7 : S9x64x128.Idx → EReal)
      = shapeCast S9x64x128
          (transpose S3x3x64x128 [2, 3, 1, 0] (m ((c : Thread nD τ).loc main_arg1))
            transposes_S128x64x3x3_S3x3x64x128_2_3_1_0) shapeCasts_S3x3x64x128_S9x64x128 := by
  have e : (Gen.V1 (F := Ideal) m ρ c main_call0_v7 : S9x64x128.Idx → EReal)
      = pad S9x64x128 ![0, 0, 0] ![0, 0, 0] ![0, 0, 0]
          (shapeCast S9x64x128
            (transpose S3x3x64x128 [2, 3, 1, 0] (m ((c : Thread nD τ).loc main_arg1))
              transposes_S128x64x3x3_S3x3x64x128_2_3_1_0) shapeCasts_S3x3x64x128_S9x64x128)
          (sitofp (F := Ideal) .f32 (constantI S_ 32 0#32)) pads_S9x64x128_S9x64x128_000_000_000 h_S_ := by
    dsimp only [Gen.V1, Gen.W1, Gen.hostOps0]; after_results; rfl
  rw [e]
  exact pad_same_shape_eq _ _ _ _ _ pads_S9x64x128_S9x64x128_000_000_000 h_S_ (by decide) (by decide)

/-- The scale vector reaches the second stretch of host operations as given. -/
theorem V1_gamma :
    (Gen.V1 (F := Ideal) m ρ c main_call0_v8 : S128.Idx → EReal) = m ((c : Thread nD τ).loc main_arg2) := by
  have e : (Gen.V1 (F := Ideal) m ρ c main_call0_v8 : S128.Idx → EReal)
      = pad S128 ![0] ![0] ![0] (m ((c : Thread nD τ).loc main_arg2))
          (sitofp (F := Ideal) .f32 (constantI S_ 32 0#32)) pads_S128_S128_000 h_S_ := by
    dsimp only [Gen.V1, Gen.W1, Gen.hostOps0]; after_results; rfl
  rw [e]
  exact pad_same_shape_eq _ _ _ _ _ pads_S128_S128_000 h_S_ (by decide) (by decide)

/-- The offset vector reaches the second stretch of host operations as given. -/
theorem V1_beta :
    (Gen.V1 (F := Ideal) m ρ c main_call0_v9 : S128.Idx → EReal) = m ((c : Thread nD τ).loc main_arg3) := by
  have e : (Gen.V1 (F := Ideal) m ρ c main_call0_v9 : S128.Idx → EReal)
      = pad S128 ![0] ![0] ![0] (m ((c : Thread nD τ).loc main_arg3))
          (sitofp (F := Ideal) .f32 (constantI S_ 32 0#32)) pads_S128_S128_000 h_S_ := by
    dsimp only [Gen.V1, Gen.W1, Gen.hostOps0]; after_results; rfl
  rw [e]
  exact pad_same_shape_eq _ _ _ _ _ pads_S128_S128_000 h_S_ (by decide) (by decide)

end Cert.ReferenceIdeal.RefValue

end
-- ==== Proof.RefExit.lean ====
/-
  The program's result read off the second region's output array. The two host operations after that region split
  the middle axis of the [64, 3136, 128] array into 56 × 56 and then move the channel axis in front of the two
  spatial ones, so entry (n, o, i, j) of the result is entry (n, 56·i + j, o) of the array.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-- The result is the second region's output array, reshaped and with its axes permuted. -/
theorem result_eq :
    (Gen.W5 (F := Ideal) m ρ c (Proc.devRef .tc main_v0) : S64x128x56x56.Idx → EReal)
      = transpose S64x128x56x56 [0, 3, 1, 2]
          (shapeCast S64x56x56x128 ((Gen.dat1 (Gen.V3 m ρ) c).arrAt 3 cfg1.N : S64x3136x128.Idx → EReal)
            shapeCasts_S64x3136x128_S64x56x56x128)
          transposes_S64x56x56x128_S64x128x56x56_0_3_1_2 := by
  have e : (Gen.W5 (F := Ideal) m ρ c (Proc.devRef .tc main_v0) : S64x128x56x56.Idx → EReal)
      = transpose S64x128x56x56 [0, 3, 1, 2]
          (shapeCast S64x56x56x128 (Gen.W4 (F := Ideal) m ρ c (Proc.devRef .tc main_call0_v33) : S64x3136x128.Idx → EReal)
            shapeCasts_S64x3136x128_S64x56x56x128)
          transposes_S64x56x56x128_S64x128x56x56_0_3_1_2 := by
    dsimp only [Gen.W5, Gen.hostOps2]; after_results; rfl
  rw [e]
  exact congrArg (fun a : S64x3136x128.Idx → EReal =>
      transpose S64x128x56x56 [0, 3, 1, 2] (shapeCast S64x56x56x128 a shapeCasts_S64x3136x128_S64x56x56x128)
        transposes_S64x56x56x128_S64x128x56x56_0_3_1_2)
    (Gen.W4_arr m ρ c 3)

/-- Entry (n, o, i, j) of the result is entry (n, 56·i + j, o) of the second region's output array. -/
theorem result_apply (n : Fin 64) (o : Fin 128) (i j : Fin 56) (p : Fin 3136) (hp : p.val = i.val * 56 + j.val) :
    (Gen.W5 (F := Ideal) m ρ c (Proc.devRef .tc main_v0) : S64x128x56x56.Idx → EReal) (ix4 n o i j)
      = ((Gen.dat1 (Gen.V3 m ρ) c).arrAt 3 cfg1.N : S64x3136x128.Idx → EReal) (ix3 n p o) := by
  rw [result_eq]
  refine (transpose_apply (s := S64x56x56x128) (t := S64x128x56x56) [0, 3, 1, 2] _
    transposes_S64x56x56x128_S64x128x56x56_0_3_1_2 (ix4 n o i j) (ix4 n i j o) ?_).trans ?_
  · intro b
    match b with
    | ⟨0, _⟩ => rfl
    | ⟨1, _⟩ => rfl
    | ⟨2, _⟩ => rfl
    | ⟨3, _⟩ => rfl
  · refine shapeCast_apply (s := S64x3136x128) (t := S64x56x56x128) _ _ _ _ ?_
    show (S64x3136x128.rowMajor (ix3 n p o)).val = (S64x56x56x128.rowMajor (ix4 n i j o)).val
    rw [Shape.rowMajor_val_three, Shape.rowMajor_val_four]
    show ((n.val * 3136 + p.val) * 128 + o.val) = (((n.val * 56 + i.val) * 56 + j.val) * 128 + o.val)
    rw [hp]; ring

end Cert.ReferenceIdeal.RefValue

end
-- ==== Proof.RefStatsArray.lean ====
/-
  The per-image statistics array after the first region. The region runs one grid point per image; point n leaves in
  the statistics window's [1, 2, 128] buffer the column sums (row 0) and the column sums of squares (row 1) of that
  image's accumulator, and writes it back to rows (n, ·, ·) of the [64, 2, 128] array. The blocks of the 64 points
  tile the array, so the array after the region is one function of its index.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (V : (c : Dev nD) → (b : Ref sig .tc) → Buf (Elt Ideal) ((c : Thread nD τ).loc b)) (c : Dev nD)

/-- The grid point that handles image `n`. -/
def statsPt (n : Nat) (h : n < 64) : Fin cfg0.N := ⟨n, by rw [show cfg0.N = 64 from N_0]; exact h⟩

/-- The window's block index at grid point `t` is (t, 0, 0): one image per point, the other two axes whole. -/
theorem statsIndex : ∀ t : Fin cfg0.N, win0_3.index t (0 : Fin 3) = t.val ∧ win0_3.index t (1 : Fin 3) = 0
    ∧ win0_3.index t (2 : Fin 3) = 0 :=
  (by decide +kernel : ∀ t : Fin grid0.N, _)

/-- The array after the region, as ONE function of its index (n, a, b): what the point of image `n` leaves in the
    window's buffer, read at (0, a, b). -/
def statsArr : S64x2x128.Idx → EReal := fun i =>
  (out0_3 (F := Ideal) (iblk0 V c 0 (statsPt (i 0).val (i 0).isLt)) (iblk0 V c 1 (statsPt (i 0).val (i 0).isLt)) : S1x2x128.Idx → EReal)
    (ix3 (0 : Fin 1) (⟨(i 1).val, (i 1).isLt⟩ : Fin 2) (⟨(i 2).val, (i 2).isLt⟩ : Fin 128))

/-- What point `t` writes back is block `t` of that function. -/
theorem statsFlushed (t : Fin cfg0.N) :
    (dat0 V c).flushed 3 t = ((cfg0.win 3).blk t).view.read (Elt Ideal) (statsArr V c) := by
  show (cfg0.win 3).cut (grid0.coords t) ((dat0 V c).after 3 t) = _
  rw [after0_3]
  obtain ⟨e0, e1, e2⟩ := statsIndex t
  funext x
  rw [View.read_apply]
  unfold statsArr
  have hx0 : (x 0).val < 1 := (x 0).isLt
  have ht : statsPt ((((cfg0.win 3).blk t).view.emb x) 0).val ((((cfg0.win 3).blk t).view.emb x) 0).isLt = t := by
    apply Fin.ext
    show win0_3.index t (0 : Fin 3) * 1 + 1 * (x 0).val = t.val
    omega
  have hx : ix3 (0 : Fin 1) (⟨((((cfg0.win 3).blk t).view.emb x) 1).val, ((((cfg0.win 3).blk t).view.emb x) 1).isLt⟩ : Fin 2)
      (⟨((((cfg0.win 3).blk t).view.emb x) 2).val, ((((cfg0.win 3).blk t).view.emb x) 2).isLt⟩ : Fin 128) = x := by
    funext a; apply Fin.ext
    match a with
    | ⟨0, _⟩ => show 0 = (x 0).val; omega
    | ⟨1, _⟩ => show win0_3.index t (1 : Fin 3) * 2 + 1 * (x 1).val = (x 1).val; omega
    | ⟨2, _⟩ => show win0_3.index t (2 : Fin 3) * 128 + 1 * (x 2).val = (x 2).val; omega
  rw [ht, hx]
  refine Eq.trans ?_ (cast_eq _ _).symm
  exact congrArg (out0_3 (F := Ideal) (iblk0 V c 0 t) (iblk0 V c 1 t) : S1x2x128.Idx → EReal) (funext fun a => Fin.ext rfl)

/-- Every index of the array lies in the block of its image's point. -/
theorem statsCover (i : S64x2x128.Idx) :
    ∃ t : Fin cfg0.N, (cfg0.win 3).flush t = true ∧ i ∈ ((cfg0.win 3).blk t).view.set := by
  refine ⟨statsPt (i 0).val (i 0).isLt, flush0_3 _, ?_⟩
  obtain ⟨e0, e1, e2⟩ := statsIndex (statsPt (i 0).val (i 0).isLt)
  have h := ((cfg0.win 3).blk (statsPt (i 0).val (i 0).isLt)).view.emb_mem_set
    (ix3 (0 : Fin 1) (⟨(i 1).val, (i 1).isLt⟩ : Fin 2) (⟨(i 2).val, (i 2).isLt⟩ : Fin 128))
  have e : ((cfg0.win 3).blk (statsPt (i 0).val (i 0).isLt)).view.emb
      (ix3 (0 : Fin 1) (⟨(i 1).val, (i 1).isLt⟩ : Fin 2) (⟨(i 2).val, (i 2).isLt⟩ : Fin 128)) = i := by
    funext a; apply Fin.ext
    match a with
    | ⟨0, _⟩ => show win0_3.index (statsPt (i 0).val (i 0).isLt) (0 : Fin 3) * 1 + 1 * 0 = (i 0).val
                rw [e0]; show (i 0).val * 1 + 1 * 0 = (i 0).val; omega
    | ⟨1, _⟩ => show win0_3.index (statsPt (i 0).val (i 0).isLt) (1 : Fin 3) * 2 + 1 * (i 1).val = (i 1).val
                rw [e1]; omega
    | ⟨2, _⟩ => show win0_3.index (statsPt (i 0).val (i 0).isLt) (2 : Fin 3) * 128 + 1 * (i 2).val = (i 2).val
                rw [e2]; omega
  rw [e] at h
  exact h

/-- The array after the region IS that function. -/
theorem statsEq : ((dat0 V c).arrAt 3 cfg0.N : S64x2x128.Idx → EReal) = statsArr V c :=
  (dat0 V c).arrAt_eq_of_cover 3 (statsArr V c) (fun t _ => statsFlushed V c t) statsCover

end Cert.ReferenceIdeal.RefValue

end
-- ==== Proof.RefConvArray.lean ====
/-
  The convolution output array after the first region. The region runs one grid point per image; point n leaves in
  the output window's [1, 3136, 128] buffer that image's accumulator (3136 positions by 128 output channels) and
  writes it back to rows (n, ·, ·) of the [64, 3136, 128] array. The blocks of the 64 points tile the array, so the
  array after the region is one function of its index.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (V : (c : Dev nD) → (b : Ref sig .tc) → Buf (Elt Ideal) ((c : Thread nD τ).loc b)) (c : Dev nD)

/-- The grid point that handles image `n`. -/
def convPt (n : Nat) (h : n < 64) : Fin cfg0.N := ⟨n, by rw [show cfg0.N = 64 from N_0]; exact h⟩

/-- The window's block index at grid point `t` is (t, 0, 0): one image per point, the other two axes whole. -/
theorem convIndex : ∀ t : Fin cfg0.N, win0_2.index t (0 : Fin 3) = t.val ∧ win0_2.index t (1 : Fin 3) = 0
    ∧ win0_2.index t (2 : Fin 3) = 0 :=
  (by decide +kernel : ∀ t : Fin grid0.N, _)

/-- The array after the region, as ONE function of its index (n, a, b): what the point of image `n` leaves in the
    window's buffer, read at (0, a, b). -/
def convArr : S64x3136x128.Idx → EReal := fun i =>
  (out0_2 (F := Ideal) (iblk0 V c 0 (convPt (i 0).val (i 0).isLt)) (iblk0 V c 1 (convPt (i 0).val (i 0).isLt)) : S1x3136x128.Idx → EReal)
    (ix3 (0 : Fin 1) (⟨(i 1).val, (i 1).isLt⟩ : Fin 3136) (⟨(i 2).val, (i 2).isLt⟩ : Fin 128))

/-- What point `t` writes back is block `t` of that function. -/
theorem convFlushed (t : Fin cfg0.N) :
    (dat0 V c).flushed 2 t = ((cfg0.win 2).blk t).view.read (Elt Ideal) (convArr V c) := by
  show (cfg0.win 2).cut (grid0.coords t) ((dat0 V c).after 2 t) = _
  rw [after0_2]
  obtain ⟨e0, e1, e2⟩ := convIndex t
  funext x
  rw [View.read_apply]
  unfold convArr
  have hx0 : (x 0).val < 1 := (x 0).isLt
  have ht : convPt ((((cfg0.win 2).blk t).view.emb x) 0).val ((((cfg0.win 2).blk t).view.emb x) 0).isLt = t := by
    apply Fin.ext
    show win0_2.index t (0 : Fin 3) * 1 + 1 * (x 0).val = t.val
    omega
  have hx : ix3 (0 : Fin 1) (⟨((((cfg0.win 2).blk t).view.emb x) 1).val, ((((cfg0.win 2).blk t).view.emb x) 1).isLt⟩ : Fin 3136)
      (⟨((((cfg0.win 2).blk t).view.emb x) 2).val, ((((cfg0.win 2).blk t).view.emb x) 2).isLt⟩ : Fin 128) = x := by
    funext a; apply Fin.ext
    match a with
    | ⟨0, _⟩ => show 0 = (x 0).val; omega
    | ⟨1, _⟩ => show win0_2.index t (1 : Fin 3) * 3136 + 1 * (x 1).val = (x 1).val; omega
    | ⟨2, _⟩ => show win0_2.index t (2 : Fin 3) * 128 + 1 * (x 2).val = (x 2).val; omega
  rw [ht, hx]
  refine Eq.trans ?_ (cast_eq _ _).symm
  exact congrArg (out0_2 (F := Ideal) (iblk0 V c 0 t) (iblk0 V c 1 t) : S1x3136x128.Idx → EReal) (funext fun a => Fin.ext rfl)

/-- Every index of the array lies in the block of its image's point. -/
theorem convCover (i : S64x3136x128.Idx) :
    ∃ t : Fin cfg0.N, (cfg0.win 2).flush t = true ∧ i ∈ ((cfg0.win 2).blk t).view.set := by
  refine ⟨convPt (i 0).val (i 0).isLt, flush0_2 _, ?_⟩
  obtain ⟨e0, e1, e2⟩ := convIndex (convPt (i 0).val (i 0).isLt)
  have h := ((cfg0.win 2).blk (convPt (i 0).val (i 0).isLt)).view.emb_mem_set
    (ix3 (0 : Fin 1) (⟨(i 1).val, (i 1).isLt⟩ : Fin 3136) (⟨(i 2).val, (i 2).isLt⟩ : Fin 128))
  have e : ((cfg0.win 2).blk (convPt (i 0).val (i 0).isLt)).view.emb
      (ix3 (0 : Fin 1) (⟨(i 1).val, (i 1).isLt⟩ : Fin 3136) (⟨(i 2).val, (i 2).isLt⟩ : Fin 128)) = i := by
    funext a; apply Fin.ext
    match a with
    | ⟨0, _⟩ => show win0_2.index (convPt (i 0).val (i 0).isLt) (0 : Fin 3) * 1 + 1 * 0 = (i 0).val
                rw [e0]; show (i 0).val * 1 + 1 * 0 = (i 0).val; omega
    | ⟨1, _⟩ => show win0_2.index (convPt (i 0).val (i 0).isLt) (1 : Fin 3) * 3136 + 1 * (i 1).val = (i 1).val
                rw [e1]; omega
    | ⟨2, _⟩ => show win0_2.index (convPt (i 0).val (i 0).isLt) (2 : Fin 3) * 128 + 1 * (i 2).val = (i 2).val
                rw [e2]; omega
  rw [e] at h
  exact h

/-- The array after the region IS that function. -/
theorem convEq : ((dat0 V c).arrAt 2 cfg0.N : S64x3136x128.Idx → EReal) = convArr V c :=
  (dat0 V c).arrAt_eq_of_cover 2 (convArr V c) (fun t _ => convFlushed V c t) convCover

end Cert.ReferenceIdeal.RefValue

end
-- ==== Proof.RefActArray.lean ====
/-
  The activation array after the second region. The region runs one grid point per image; point n leaves in the
  output window's [1, 3136, 128] buffer that image's convolution output scaled, offset and clamped below at zero, and
  writes it back to rows (n, ·, ·) of the [64, 3136, 128] array. The blocks of the 64 points tile the array, so the
  array after the region is one function of its index.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (V : (c : Dev nD) → (b : Ref sig .tc) → Buf (Elt Ideal) ((c : Thread nD τ).loc b)) (c : Dev nD)

/-- The grid point that handles image `n`. -/
def actPt (n : Nat) (h : n < 64) : Fin cfg1.N := ⟨n, by rw [show cfg1.N = 64 from N_1]; exact h⟩

/-- The window's block index at grid point `t` is (t, 0, 0): one image per point, the other two axes whole. -/
theorem actIndex : ∀ t : Fin cfg1.N, win1_3.index t (0 : Fin 3) = t.val ∧ win1_3.index t (1 : Fin 3) = 0
    ∧ win1_3.index t (2 : Fin 3) = 0 :=
  (by decide +kernel : ∀ t : Fin grid1.N, _)

/-- The array after the region, as ONE function of its index (n, a, b): what the point of image `n` leaves in the
    window's buffer, read at (0, a, b). -/
def actArr : S64x3136x128.Idx → EReal := fun i =>
  (out1_3 (F := Ideal) (iblk1 V c 0 (actPt (i 0).val (i 0).isLt)) (iblk1 V c 1 (actPt (i 0).val (i 0).isLt)) (iblk1 V c 2 (actPt (i 0).val (i 0).isLt)) : S1x3136x128.Idx → EReal)
    (ix3 (0 : Fin 1) (⟨(i 1).val, (i 1).isLt⟩ : Fin 3136) (⟨(i 2).val, (i 2).isLt⟩ : Fin 128))

/-- What point `t` writes back is block `t` of that function. -/
theorem actFlushed (t : Fin cfg1.N) :
    (dat1 V c).flushed 3 t = ((cfg1.win 3).blk t).view.read (Elt Ideal) (actArr V c) := by
  show (cfg1.win 3).cut (grid1.coords t) ((dat1 V c).after 3 t) = _
  rw [after1_3]
  obtain ⟨e0, e1, e2⟩ := actIndex t
  funext x
  rw [View.read_apply]
  unfold actArr
  have hx0 : (x 0).val < 1 := (x 0).isLt
  have ht : actPt ((((cfg1.win 3).blk t).view.emb x) 0).val ((((cfg1.win 3).blk t).view.emb x) 0).isLt = t := by
    apply Fin.ext
    show win1_3.index t (0 : Fin 3) * 1 + 1 * (x 0).val = t.val
    omega
  have hx : ix3 (0 : Fin 1) (⟨((((cfg1.win 3).blk t).view.emb x) 1).val, ((((cfg1.win 3).blk t).view.emb x) 1).isLt⟩ : Fin 3136)
      (⟨((((cfg1.win 3).blk t).view.emb x) 2).val, ((((cfg1.win 3).blk t).view.emb x) 2).isLt⟩ : Fin 128) = x := by
    funext a; apply Fin.ext
    match a with
    | ⟨0, _⟩ => show 0 = (x 0).val; omega
    | ⟨1, _⟩ => show win1_3.index t (1 : Fin 3) * 3136 + 1 * (x 1).val = (x 1).val; omega
    | ⟨2, _⟩ => show win1_3.index t (2 : Fin 3) * 128 + 1 * (x 2).val = (x 2).val; omega
  rw [ht, hx]
  refine Eq.trans ?_ (cast_eq _ _).symm
  exact congrArg (out1_3 (F := Ideal) (iblk1 V c 0 t) (iblk1 V c 1 t) (iblk1 V c 2 t) : S1x3136x128.Idx → EReal) (funext fun a => Fin.ext rfl)

/-- Every index of the array lies in the block of its image's point. -/
theorem actCover (i : S64x3136x128.Idx) :
    ∃ t : Fin cfg1.N, (cfg1.win 3).flush t = true ∧ i ∈ ((cfg1.win 3).blk t).view.set := by
  refine ⟨actPt (i 0).val (i 0).isLt, flush1_3 _, ?_⟩
  obtain ⟨e0, e1, e2⟩ := actIndex (actPt (i 0).val (i 0).isLt)
  have h := ((cfg1.win 3).blk (actPt (i 0).val (i 0).isLt)).view.emb_mem_set
    (ix3 (0 : Fin 1) (⟨(i 1).val, (i 1).isLt⟩ : Fin 3136) (⟨(i 2).val, (i 2).isLt⟩ : Fin 128))
  have e : ((cfg1.win 3).blk (actPt (i 0).val (i 0).isLt)).view.emb
      (ix3 (0 : Fin 1) (⟨(i 1).val, (i 1).isLt⟩ : Fin 3136) (⟨(i 2).val, (i 2).isLt⟩ : Fin 128)) = i := by
    funext a; apply Fin.ext
    match a with
    | ⟨0, _⟩ => show win1_3.index (actPt (i 0).val (i 0).isLt) (0 : Fin 3) * 1 + 1 * 0 = (i 0).val
                rw [e0]; show (i 0).val * 1 + 1 * 0 = (i 0).val; omega
    | ⟨1, _⟩ => show win1_3.index (actPt (i 0).val (i 0).isLt) (1 : Fin 3) * 3136 + 1 * (i 1).val = (i 1).val
                rw [e1]; omega
    | ⟨2, _⟩ => show win1_3.index (actPt (i 0).val (i 0).isLt) (2 : Fin 3) * 128 + 1 * (i 2).val = (i 2).val
                rw [e2]; omega
  rw [e] at h
  exact h

/-- The array after the region IS that function. -/
theorem actEq : ((dat1 V c).arrAt 3 cfg1.N : S64x3136x128.Idx → EReal) = actArr V c :=
  (dat1 V c).arrAt_eq_of_cover 3 (actArr V c) (fun t _ => actFlushed V c t) actCover

end Cert.ReferenceIdeal.RefValue

end
-- ==== Proof.RefAccum.lean ====
/-
  The first region's arithmetic at one grid point. The body starts from a zero [3136, 128] accumulator and, tap after
  tap (nine of them), loads a shifted 56×56×64 window of the padded image, flattens it to a [3136, 64] matrix, loads
  that tap's [64, 128] slab of the weight stack, and adds their matrix product. Entry (p, o) of the result is zero
  plus, for t = 0 … 8 in order, the sum over the 64 input channels c of (tap t at (p, c)) · (weights at (t, c, o)).
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«103070_g2000601905423008_pallasbulk_286_2_alg».proof.Proof.ConvSum
import proofs.«103070_g2000601905423008_pallasbulk_286_2_alg».proof.Proof.LibPlainDot

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-- The nine tap matrices of an image block, in the order the body adds their products. -/
def taps (x0 : Vec Ideal S1x58x58x64 .f32) : Fin 9 → S3136x64.Idx → EReal :=
  ![shapeCast S3136x64 (shapeCast S56x56x64 (View.ld x0 r0_0) shapeCasts_S1x56x56x64_S56x56x64) shapeCasts_S56x56x64_S3136x64,
    shapeCast S3136x64 (shapeCast S56x56x64 (View.ld x0 r0_2) shapeCasts_S1x56x56x64_S56x56x64) shapeCasts_S56x56x64_S3136x64,
    shapeCast S3136x64 (shapeCast S56x56x64 (View.ld x0 r0_4) shapeCasts_S1x56x56x64_S56x56x64) shapeCasts_S56x56x64_S3136x64,
    shapeCast S3136x64 (shapeCast S56x56x64 (View.ld x0 r0_6) shapeCasts_S1x56x56x64_S56x56x64) shapeCasts_S56x56x64_S3136x64,
    shapeCast S3136x64 (shapeCast S56x56x64 (View.ld x0 r0_8) shapeCasts_S1x56x56x64_S56x56x64) shapeCasts_S56x56x64_S3136x64,
    shapeCast S3136x64 (shapeCast S56x56x64 (View.ld x0 r0_10) shapeCasts_S1x56x56x64_S56x56x64) shapeCasts_S56x56x64_S3136x64,
    shapeCast S3136x64 (shapeCast S56x56x64 (View.ld x0 r0_12) shapeCasts_S1x56x56x64_S56x56x64) shapeCasts_S56x56x64_S3136x64,
    shapeCast S3136x64 (shapeCast S56x56x64 (View.ld x0 r0_14) shapeCasts_S1x56x56x64_S56x56x64) shapeCasts_S56x56x64_S3136x64,
    shapeCast S3136x64 (shapeCast S56x56x64 (View.ld x0 r0_16) shapeCasts_S1x56x56x64_S56x56x64) shapeCasts_S56x56x64_S3136x64]

/-- One accumulation step at an entry: what was there, plus the contraction over the 64 input channels. -/
theorem add_product_apply (P : FVec Ideal S3136x128 .f32) (A : FVec Ideal S3136x64 .f32) (B : FVec Ideal S64x128 .f32)
    (j : S3136x128.Idx) (s T : EReal) (hP : P j = s)
    (hT : ∑ k : Fin 64, (A (ix2 (j 0) k) : EReal) * B (ix2 k (j 1)) = T) :
    addf (F := Ideal) P (matmul dot_S3136x64_S64x128_S3136x128_1_0_0_1_n_n none A B (constant S3136x128 .f32 0x00000000#32)) j
      = s + T := by
  refine (addf_apply _ _ j).trans ?_
  rw [hP, ← hT]
  exact congrArg (s + ·) (PlainDot.matmul_zero_apply 3136 64 128 none A B j)

/-- Tap t's slab of the weight stack, as a [64, 128] matrix, at (c, o) is the stack at (t, c, o). -/
theorem slab_apply (x1 : Vec Ideal S9x64x128 .f32) (t : Fin 9)
    (inb : ∀ a, (![t.val, 0, 0] : Fin 3 → Nat) a + S1x64x128.size a ≤ S9x64x128.size a) (k : Fin 64) (o : Fin 128) :
    (shapeCast S64x128 (View.ld x1 (Rect.unit (s := S9x64x128) ![t.val, 0, 0] S1x64x128.size inb))
        shapeCasts_S1x64x128_S64x128 : S64x128.Idx → EReal) (ix2 k o)
      = (x1 : S9x64x128.Idx → EReal) (ix3 t k o) := by
  refine (shapeCast_apply (s := S1x64x128) (t := S64x128) _ shapeCasts_S1x64x128_S64x128 (ix2 k o)
    (ix3 (0 : Fin 1) k o) ?_).trans ?_
  · rw [Shape.rowMajor_val_three, Shape.rowMajor_val_two]
    show (0 * 64 + k.val) * 128 + o.val = k.val * 128 + o.val
    omega
  · refine congrArg (x1 : S9x64x128.Idx → EReal) (funext fun a => Fin.ext ?_)
    match a with
    | ⟨0, _⟩ => show t.val + 1 * 0 = t.val; omega
    | ⟨1, _⟩ => show 0 + 1 * k.val = k.val; omega
    | ⟨2, _⟩ => show 0 + 1 * o.val = o.val; omega

/-- Tap t's product at an entry is that tap's contribution to the accumulator. -/
theorem tap_sum (x0 : Vec Ideal S1x58x58x64 .f32) (x1 : Vec Ideal S9x64x128 .f32) (t : Fin 9)
    (inb : ∀ a, (![t.val, 0, 0] : Fin 3 → Nat) a + S1x64x128.size a ≤ S9x64x128.size a) (j : S3136x128.Idx) :
    ∑ k : Fin 64, taps x0 t (ix2 (j 0) k)
        * (shapeCast S64x128 (View.ld x1 (Rect.unit (s := S9x64x128) ![t.val, 0, 0] S1x64x128.size inb))
            shapeCasts_S1x64x128_S64x128 : S64x128.Idx → EReal) (ix2 k (j 1))
      = ConvSum.tapSum (taps x0) x1 t j :=
  Finset.sum_congr rfl fun k _ => congrArg (taps x0 t (ix2 (j 0) k) * ·) (slab_apply x1 t inb k (j 1))

/-- The body's accumulator is zero plus the nine taps' contractions over the input channels, in order. -/
theorem accum_eq (x0 : Vec Ideal S1x58x58x64 .f32) (x1 : Vec Ideal S9x64x128 .f32) :
    (k0_pay1 (F := Ideal) (k0_pay8 (k0_pay5 (View.ld x0 r0_0) (View.ld x1 r0_1) (View.ld x0 r0_2) (View.ld x1 r0_3) (View.ld x0 r0_4) (View.ld x1 r0_5)) (k0_pay6 (View.ld x0 r0_6)) (k0_pay7 (View.ld x1 r0_7)) (View.ld x0 r0_8) (View.ld x1 r0_9) (View.ld x0 r0_10) (View.ld x1 r0_11) (View.ld x0 r0_12) (View.ld x1 r0_13)) (k0_pay9 (View.ld x0 r0_14)) (k0_pay10 (View.ld x1 r0_15)) (View.ld x0 r0_16) (View.ld x1 r0_17) : S3136x128.Idx → EReal)
      = ConvSum.acc (taps x0) x1 := by
  funext j
  unfold ConvSum.acc
  unfold k0_pay1
  refine add_product_apply _ _ _ j _ _ ?_ ?_
  swap; · exact tap_sum x0 x1 8 _ j
  refine add_product_apply _ _ _ j _ _ ?_ ?_
  swap; · exact tap_sum x0 x1 7 _ j
  unfold k0_pay8
  refine add_product_apply _ _ _ j _ _ ?_ ?_
  swap; · exact tap_sum x0 x1 6 _ j
  refine add_product_apply _ _ _ j _ _ ?_ ?_
  swap; · exact tap_sum x0 x1 5 _ j
  refine add_product_apply _ _ _ j _ _ ?_ ?_
  swap; · exact tap_sum x0 x1 4 _ j
  refine add_product_apply _ _ _ j _ _ ?_ ?_
  swap; · exact tap_sum x0 x1 3 _ j
  unfold k0_pay5
  refine add_product_apply _ _ _ j _ _ ?_ ?_
  swap; · exact tap_sum x0 x1 2 _ j
  refine add_product_apply _ _ _ j _ _ ?_ ?_
  swap; · exact tap_sum x0 x1 1 _ j
  refine add_product_apply _ _ _ j _ _ ?_ ?_
  swap; · exact tap_sum x0 x1 0 _ j
  exact Ideal.ofBits_zero_f32

end Cert.ReferenceIdeal.RefValue

end
-- ==== Proof.LibOuterLayout.lean ====
/-
  The casts and broadcasts by which two matrices and a table of weights are combined into one rank-3
  array, read at coordinates.

  A kernel that forms  out[i, j, k] = d[i, j] * (p[i, k] + q[j, k])  from matrices p, q : [a, c] / [b, c]
  and d : [a, b] gives each a unit axis and broadcasts it along that axis:
      p : [a, c] -> [a, 1, c] -> [a, b, c]   read at (i, j, k) is p (i, k)
      q : [b, c] -> [1, b, c] -> [a, b, c]   read at (i, j, k) is q (j, k)
      d : [a, b] -> [a, b, 1] -> [a, b, c]   read at (i, j, k) is d (i, j)
  Each lemma reads one such operation at an index written by coordinates; also the cast that drops two
  leading unit axes of a [1, 1, a, b] slab.  Generic in the extents and in the element type.
-/
import Idealize.ShloMosaic.Lib.Pipeline.Value
import Idealize.ShloMosaic.Lib.ValueIdx

noncomputable section

namespace OuterLayout

open Idealize.ShloMosaic Idealize.ShloMosaic.ValueIdx

variable {α : Type}

/-- A [1, 1, a, b] slab cast to [a, b] reads, at (i, j), the slab at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end OuterLayout

end
-- ==== Proof.RefPayloads.lean ====
/-
  What the two kernel bodies leave in their output buffers, read at an index.
  First region: the convolution buffer [1, 3136, 128] holds the accumulator — entry (0, p, o) is the accumulator's
  (p, o) —, and the statistics buffer [1, 2, 128] is a function of the accumulator alone: its column sums in row 0,
  the column sums of its squares in row 1.
  Second region: entry (0, p, o) of the output buffer is max(y(0, p, o) · scale(0, 0, o) + offset(0, 0, o), 0), the
  scale and offset rows [1, 1, 128] broadcast along the positions.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«103070_g2000601905423008_pallasbulk_286_2_alg».proof.Proof.LibOuterLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

theorem hz3 : (![0, 0, 0] : Fin 3 → Nat) = fun _ => 0 := funext fun a => by fin_cases a <;> rfl

/-- The first region's accumulator at a grid point, from the image block and the weight stack. -/
abbrev accum (x0 : Vec Ideal S1x58x58x64 .f32) (x1 : Vec Ideal S9x64x128 .f32) : S3136x128.Idx → EReal :=
  k0_pay1 (F := Ideal) (k0_pay8 (k0_pay5 (View.ld x0 r0_0) (View.ld x1 r0_1) (View.ld x0 r0_2) (View.ld x1 r0_3) (View.ld x0 r0_4) (View.ld x1 r0_5)) (k0_pay6 (View.ld x0 r0_6)) (k0_pay7 (View.ld x1 r0_7)) (View.ld x0 r0_8) (View.ld x1 r0_9) (View.ld x0 r0_10) (View.ld x1 r0_11) (View.ld x0 r0_12) (View.ld x1 r0_13)) (k0_pay9 (View.ld x0 r0_14)) (k0_pay10 (View.ld x1 r0_15)) (View.ld x0 r0_16) (View.ld x1 r0_17)

/-- The convolution buffer after the body: the accumulator under a leading unit axis. -/
theorem conv_block_apply (x0 : Vec Ideal S1x58x58x64 .f32) (x1 : Vec Ideal S9x64x128 .f32) (p : Fin 3136) (o : Fin 128) :
    (out0_2 (F := Ideal) x0 x1 : S1x3136x128.Idx → EReal) (ix3 (0 : Fin 1) p o) = accum x0 x1 (ix2 p o) := by
  unfold out0_2
  rw [View.canon_unit_zero hz3]
  unfold k0_pay2
  exact shapeCast_ab_1ab_apply _ _ (0 : Fin 1) p o

/-- The statistics buffer as a function of an accumulator: row 0 its column sums, row 1 the column sums of its
    squares (the two row stores, last first). -/
def statsBlock (a : S3136x128.Idx → EReal) : S1x2x128.Idx → EReal :=
  View.canon
    ([⟨r0_20, shapeCast S1x1x128 (shapeCast S1x128 (multiReduction (F := Ideal) .add [0] S128 (mulf (F := Ideal) (φ := .f32) a a) 0x00000000#32 reduces_S3136x128_S128 (.inl rfl) rfl) shapeCasts_S128_S1x128) shapeCasts_S1x128_S1x1x128⟩,
     ⟨r0_19, shapeCast S1x1x128 (shapeCast S1x128 (multiReduction (F := Ideal) (φ := .f32) .add [0] S128 a 0x00000000#32 reduces_S3136x128_S128 (.inl rfl) rfl) shapeCasts_S128_S1x128) shapeCasts_S1x128_S1x1x128⟩] : List (View.Piece (Elt Ideal) S1x2x128 .f32))

/-- The statistics buffer after the body is that function of the accumulator. -/
theorem stats_block_eq (x0 : Vec Ideal S1x58x58x64 .f32) (x1 : Vec Ideal S9x64x128 .f32) :
    (out0_3 (F := Ideal) x0 x1 : S1x2x128.Idx → EReal) = statsBlock (accum x0 x1) := rfl

/-- The second region's output buffer at (0, p, o): scale, offset, clamp below at zero. -/
theorem act_block_apply (x0 : Vec Ideal S1x3136x128 .f32) (x1 x2 : Vec Ideal S1x1x128 .f32) (p : Fin 3136) (o : Fin 128) :
    (out1_3 (F := Ideal) x0 x1 x2 : S1x3136x128.Idx → EReal) (ix3 (0 : Fin 1) p o)
      = max ((x0 : S1x3136x128.Idx → EReal) (ix3 (0 : Fin 1) p o) * (x1 : S1x1x128.Idx → EReal) (ix3 (0 : Fin 1) (0 : Fin 1) o)
          + (x2 : S1x1x128.Idx → EReal) (ix3 (0 : Fin 1) (0 : Fin 1) o)) 0 := by
  unfold out1_3
  rw [View.canon_unit_zero hz3]
  simp only [View.ld_unit_zero (S := S1x3136x128) hz3, View.ld_unit_zero (S := S1x1x128) hz3]
  unfold k1_pay1
  show max (shapeCast S1x3136x128 (x0 : S1x3136x128.Idx → EReal) shapeCasts_S1x3136x128_S1x3136x128 (ix3 (0 : Fin 1) p o)
        * broadcastTo S1x3136x128 (shapeCast S1x1x128 (x1 : S1x1x128.Idx → EReal) shapeCasts_S1x1x128_S1x1x128) broadcasts_S1x1x128_S1x3136x128 (ix3 (0 : Fin 1) p o)
      + broadcastTo S1x3136x128 (shapeCast S1x1x128 (x2 : S1x1x128.Idx → EReal) shapeCasts_S1x1x128_S1x1x128) broadcasts_S1x1x128_S1x3136x128 (ix3 (0 : Fin 1) p o))
      (Ideal.ofBits .f32 0x00000000#32) = _
  rw [shapeCast_self, shapeCast_self, shapeCast_self, OuterLayout.broadcastTo_a1c_abc_apply,
    OuterLayout.broadcastTo_a1c_abc_apply, Ideal.ofBits_zero_f32]

end Cert.ReferenceIdeal.RefValue

end
-- ==== Proof.RefBlocks.lean ====
/-
  The blocks the two regions' bodies are handed at a grid point, as functions of the arrays the region finds.
  First region, point t: the image window holds image t's padded block; the weight window holds the whole
  [9, 64, 128] weight stack (its index map is constant). Second region, point t: the conv window holds image t's
  [1, 3136, 128] block; the scale and shift windows hold their whole [1, 1, 128] rows.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSpec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (V : (c : Dev nD) → (b : Ref sig .tc) → Buf (Elt Ideal) ((c : Thread nD τ).loc b)) (c : Dev nD)

theorem index0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem index0_1 : ∀ t : Fin cfg0.N, win0_1.index t (0 : Fin 3) = 0 ∧ win0_1.index t (1 : Fin 3) = 0
    ∧ win0_1.index t (2 : Fin 3) = 0 :=
  (by decide +kernel : ∀ t : Fin grid0.N, _)
theorem index1_0 : ∀ t : Fin cfg1.N, win1_0.index t (0 : Fin 3) = t.val ∧ win1_0.index t (1 : Fin 3) = 0
    ∧ win1_0.index t (2 : Fin 3) = 0 :=
  (by decide +kernel : ∀ t : Fin grid1.N, _)
theorem index1_1 : ∀ t : Fin cfg1.N, win1_1.index t (0 : Fin 3) = 0 ∧ win1_1.index t (1 : Fin 3) = 0
    ∧ win1_1.index t (2 : Fin 3) = 0 :=
  (by decide +kernel : ∀ t : Fin grid1.N, _)
theorem index1_2 : ∀ t : Fin cfg1.N, win1_2.index t (0 : Fin 3) = 0 ∧ win1_2.index t (1 : Fin 3) = 0
    ∧ win1_2.index t (2 : Fin 3) = 0 :=
  (by decide +kernel : ∀ t : Fin grid1.N, _)

theorem pt0_lt (t : Fin cfg0.N) : t.val < 64 := lt_of_lt_of_eq t.isLt N_0
theorem pt1_lt (t : Fin cfg1.N) : t.val < 64 := lt_of_lt_of_eq t.isLt N_1

/-- First region, image window: image `t`'s padded block of the image array. -/
theorem image_block (t : Fin cfg0.N) :
    (iblk0 V c 0 t : S1x58x58x64.Idx → EReal)
      = ConvSpec.imageBlock (V c main_call0_v4 : S64x58x58x64.Idx → EReal) t.val (pt0_lt t) := by
  obtain ⟨e0, e1, e2, e3⟩ := index0_0 t
  funext y
  unfold iblk0
  rw [View.read_apply]
  refine (cast_eq _ _).trans ?_
  unfold ConvSpec.imageBlock
  have h0 : (y 0).val < 1 := (y 0).isLt
  refine congrArg (V c main_call0_v4 : S64x58x58x64.Idx → EReal) (funext fun a => Fin.ext ?_)
  match a with
  | ⟨0, _⟩ => show win0_0.index t (0 : Fin 4) * 1 + 1 * (y 0).val = t.val; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 64 + 1 * (y 3).val = (y 3).val; omega

/-- First region, weight window: the whole weight stack. -/
theorem weight_block (t : Fin cfg0.N) : (iblk0 V c 1 t : S9x64x128.Idx → EReal) = V c main_call0_v7 := by
  obtain ⟨e0, e1, e2⟩ := index0_1 t
  funext y
  unfold iblk0
  rw [View.read_apply]
  refine (cast_eq _ _).trans ?_
  refine congrArg (V c main_call0_v7 : S9x64x128.Idx → EReal) (funext fun a => Fin.ext ?_)
  match a with
  | ⟨0, _⟩ => show win0_1.index t (0 : Fin 3) * 9 + 1 * (y 0).val = (y 0).val; omega
  | ⟨1, _⟩ => show win0_1.index t (1 : Fin 3) * 64 + 1 * (y 1).val = (y 1).val; omega
  | ⟨2, _⟩ => show win0_1.index t (2 : Fin 3) * 128 + 1 * (y 2).val = (y 2).val; omega

/-- Second region, scale window: the whole scale row. -/
theorem scale_block (t : Fin cfg1.N) : (iblk1 V c 1 t : S1x1x128.Idx → EReal) = V c main_call0_v31 := by
  obtain ⟨e0, e1, e2⟩ := index1_1 t
  funext y
  unfold iblk1
  rw [View.read_apply]
  refine (cast_eq _ _).trans ?_
  refine congrArg (V c main_call0_v31 : S1x1x128.Idx → EReal) (funext fun a => Fin.ext ?_)
  match a with
  | ⟨0, _⟩ => show win1_1.index t (0 : Fin 3) * 1 + 1 * (y 0).val = (y 0).val; omega
  | ⟨1, _⟩ => show win1_1.index t (1 : Fin 3) * 1 + 1 * (y 1).val = (y 1).val; omega
  | ⟨2, _⟩ => show win1_1.index t (2 : Fin 3) * 128 + 1 * (y 2).val = (y 2).val; omega

/-- Second region, shift window: the whole shift row. -/
theorem shift_block (t : Fin cfg1.N) : (iblk1 V c 2 t : S1x1x128.Idx → EReal) = V c main_call0_v32 := by
  obtain ⟨e0, e1, e2⟩ := index1_2 t
  funext y
  unfold iblk1
  rw [View.read_apply]
  refine (cast_eq _ _).trans ?_
  refine congrArg (V c main_call0_v32 : S1x1x128.Idx → EReal) (funext fun a => Fin.ext ?_)
  match a with
  | ⟨0, _⟩ => show win1_2.index t (0 : Fin 3) * 1 + 1 * (y 0).val = (y 0).val; omega
  | ⟨1, _⟩ => show win1_2.index t (1 : Fin 3) * 1 + 1 * (y 1).val = (y 1).val; omega
  | ⟨2, _⟩ => show win1_2.index t (2 : Fin 3) * 128 + 1 * (y 2).val = (y 2).val; omega

/-- Second region, conv window: entry (0, p, o) of point `t`'s block is entry (t, p, o) of the conv array. -/
theorem conv_block_apply' (t : Fin cfg1.N) (p : Fin 3136) (o : Fin 128) :
    (iblk1 V c 0 t : S1x3136x128.Idx → EReal) (ix3 (0 : Fin 1) p o)
      = (V c main_call0_v10_0 : S64x3136x128.Idx → EReal) (ix3 (⟨t.val, pt1_lt t⟩ : Fin 64) p o) := by
  obtain ⟨e0, e1, e2⟩ := index1_0 t
  unfold iblk1
  rw [View.read_apply]
  refine (cast_eq _ _).trans ?_
  refine congrArg (V c main_call0_v10_0 : S64x3136x128.Idx → EReal) (funext fun a => Fin.ext ?_)
  match a with
  | ⟨0, _⟩ => show win1_0.index t (0 : Fin 3) * 1 + 1 * 0 = t.val; omega
  | ⟨1, _⟩ => show win1_0.index t (1 : Fin 3) * 3136 + 1 * p.val = p.val; omega
  | ⟨2, _⟩ => show win1_0.index t (2 : Fin 3) * 128 + 1 * o.val = o.val; omega

end Cert.ReferenceIdeal.RefValue

end
-- ==== Proof.RefMiddle.lean ====
/-
  Between the two regions. The host reduces the per-image statistics [64, 2, 128] over the 64 images, divides by the
  number of positions 64·3136 = 200704 to get each channel's mean and mean square, forms the biased variance
  max(E[y²] − E[y]², 0), and from it scale = gamma · rsqrt(var + eps) and shift = beta − mean · scale, each handed
  to the second region as a [1, 1, 128] row. The scale and offset vectors it uses are the copies the first stretch
  of host operations made, which are the launch arguments. The convolution array reaches the second region as the
  first region left it.
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.RefEntry

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-- Per-channel mean of the conv output, from the statistics array's row 0. -/
def meanOf (stats : S64x2x128.Idx → EReal) : S128.Idx → EReal :=
  Host.divf (F := Ideal) (φ := .f32)
    (Host.reduceAdd (F := Ideal) (φ := .f32)
      (shapeCast S64x128 (extractStridedSlice S64x1x128 ![0, 0, 0] stats slices_S64x2x128_S64x1x128_0_0_0) shapeCasts_S64x1x128_S64x128)
      (constant (F := Ideal) S_ .f32 0x00000000#32) reducesTo_S64x128_S128_d0 h_S_)
    (broadcastInDim S128 ![] bcast_S_S128 (constant (F := Ideal) S_ .f32 0x48440000#32))

/-- Per-channel mean square, from row 1. -/
def meanSqOf (stats : S64x2x128.Idx → EReal) : S128.Idx → EReal :=
  Host.divf (F := Ideal) (φ := .f32)
    (Host.reduceAdd (F := Ideal) (φ := .f32)
      (shapeCast S64x128 (extractStridedSlice S64x1x128 ![0, 1, 0] stats slices_S64x2x128_S64x1x128_0_1_0) shapeCasts_S64x1x128_S64x128)
      (constant (F := Ideal) S_ .f32 0x00000000#32) reducesTo_S64x128_S128_d0 h_S_)
    (broadcastInDim S128 ![] bcast_S_S128 (constant (F := Ideal) S_ .f32 0x48440000#32))

/-- scale = gamma · rsqrt(max(E[y²] − E[y]², 0) + eps). -/
def scaleOf (stats : S64x2x128.Idx → EReal) (gamma : S128.Idx → EReal) : S128.Idx → EReal :=
  mulf (F := Ideal) (φ := .f32) gamma
    (Host.rsqrt (F := Ideal) (φ := .f32)
      (addf (F := Ideal) (φ := .f32)
        (maximumf (F := Ideal) (φ := .f32)
          (subf (F := Ideal) (φ := .f32) (meanSqOf stats) (mulf (F := Ideal) (φ := .f32) (meanOf stats) (meanOf stats)))
          (broadcastInDim S128 ![] bcast_S_S128 (constant (F := Ideal) S_ .f32 0x00000000#32)))
        (broadcastInDim S128 ![] bcast_S_S128 (constant (F := Ideal) S_ .f32 0x3727C5AC#32))))

/-- shift = beta − mean · scale. -/
def shiftOf (stats : S64x2x128.Idx → EReal) (gamma beta : S128.Idx → EReal) : S128.Idx → EReal :=
  subf (F := Ideal) (φ := .f32) beta (mulf (F := Ideal) (φ := .f32) (meanOf stats) (scaleOf stats gamma))

theorem W2_stats : (Gen.W2 (F := Ideal) m ρ c (Proc.devRef .tc main_call0_v10_1)) = (Gen.dat0 (Gen.V1 m ρ) c).arrAt 3 cfg0.N :=
  Gen.W2_arr m ρ c 3

/-- The scale vector the statistics chain multiplies by is the launch argument. -/
theorem W2_gamma : (Gen.W2 (F := Ideal) m ρ c (Proc.devRef .tc main_call0_v8) : S128.Idx → EReal)
    = m ((c : Thread nD τ).loc main_arg2) :=
  (Gen.W2_of_ne m ρ c main_call0_v8 (by decide)).trans (V1_gamma m ρ c)

/-- The offset vector the statistics chain subtracts from is the launch argument. -/
theorem W2_beta : (Gen.W2 (F := Ideal) m ρ c (Proc.devRef .tc main_call0_v9) : S128.Idx → EReal)
    = m ((c : Thread nD τ).loc main_arg3) :=
  (Gen.W2_of_ne m ρ c main_call0_v9 (by decide)).trans (V1_beta m ρ c)

/-- The conv array enters the second region as the first region left it. -/
theorem V3_conv : (Gen.V3 (F := Ideal) m ρ c main_call0_v10_0) = (Gen.dat0 (Gen.V1 m ρ) c).arrAt 2 cfg0.N := by
  have h : Gen.V3 (F := Ideal) m ρ c main_call0_v10_0 = Gen.W2 (F := Ideal) m ρ c (Proc.devRef .tc main_call0_v10_0) := by
    dsimp only [Gen.V3, Gen.W3, Gen.hostOps1]; after_results_simp
  exact h.trans (Gen.W2_arr m ρ c 2)

/-- The scale row the second region is entered with. -/
theorem V3_scale : (Gen.V3 (F := Ideal) m ρ c main_call0_v31 : S1x1x128.Idx → EReal)
    = shapeCast S1x1x128 (scaleOf ((Gen.dat0 (Gen.V1 m ρ) c).arrAt 3 cfg0.N) (m ((c : Thread nD τ).loc main_arg2))) shapeCasts_S128_S1x1x128 := by
  dsimp only [Gen.V3, Gen.W3, Gen.hostOps1]
  after_results_simp
  rw [W2_stats, W2_gamma]
  rfl

/-- The shift row the second region is entered with. -/
theorem V3_shift : (Gen.V3 (F := Ideal) m ρ c main_call0_v32 : S1x1x128.Idx → EReal)
    = shapeCast S1x1x128 (shiftOf ((Gen.dat0 (Gen.V1 m ρ) c).arrAt 3 cfg0.N) (m ((c : Thread nD τ).loc main_arg2))
        (m ((c : Thread nD τ).loc main_arg3))) shapeCasts_S128_S1x1x128 := by
  dsimp only [Gen.V3, Gen.W3, Gen.hostOps1]
  after_results_simp
  rw [W2_stats, W2_gamma, W2_beta]
  rfl

end Cert.ReferenceIdeal.RefValue

end
-- ==== Proof.RefValue.lean ====
/-
  The program's result at an index, in closed form. With X the padded channels-last image array, w the [9, 64, 128]
  weight stack, and for image n the accumulator A_n = ConvSum.acc (taps of image n's block) w:
    result(n, o, i, j) = max( A_n(56·i + j, o) · scale(o) + shift(o), 0 ),
  where scale and shift are the host's per-channel chain applied to the statistics array
  S(n, r, o) = statsBlock(A_n)(0, r, o) (column sums and column sums of squares of every image's accumulator).
-/
import proofs.«103070_g2000601905423008_pallasbulk_286_2_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import proofs.«103070_g2000601905423008_pallasbulk_286_2_alg».proof.Proof.ConvSum
import proofs.«103070_g2000601905423008_pallasbulk_286_2_alg».proof.Proof.ConvSpec
import proofs.«103070_g2000601905423008_pallasbulk_286_2_alg».proof.Proof.RefEntry
import proofs.«103070_g2000601905423008_pallasbulk_286_2_alg».proof.Proof.RefExit
import proofs.«103070_g2000601905423008_pallasbulk_286_2_alg».proof.Proof.RefStatsArray
import proofs.«103070_g2000601905423008_pallasbulk_286_2_alg».proof.Proof.RefConvArray
import proofs.«103070_g2000601905423008_pallasbulk_286_2_alg».proof.Proof.RefActArray
import proofs.«103070_g2000601905423008_pallasbulk_286_2_alg».proof.Proof.RefAccum
import proofs.«103070_g2000601905423008_pallasbulk_286_2_alg».proof.Proof.RefPayloads
import proofs.«103070_g2000601905423008_pallasbulk_286_2_alg».proof.Proof.RefBlocks
import proofs.«103070_g2000601905423008_pallasbulk_286_2_alg».proof.Proof.RefMiddle

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-- The padded channels-last image array, as the host operations before the first region spell it. -/
abbrev imageOf (x : S64x64x56x56.Idx → EReal) : S64x58x58x64.Idx → EReal :=
  pad S64x58x58x64 ![0, 1, 1, 0] ![0, 1, 1, 0] ![0, 0, 0, 0]
    (transpose S64x56x56x64 [0, 2, 3, 1] x transposes_S64x64x56x56_S64x56x56x64_0_2_3_1)
    (sitofp (F := Ideal) .f32 (constantI S_ 32 0#32)) pads_S64x56x56x64_S64x58x58x64_000_110_110_000 h_S_

/-- The weight stack: the weights reordered to (tap row, tap column, input channel, output channel), the two tap
    axes flattened to nine. -/
abbrev stackOf (W : S128x64x3x3.Idx → EReal) : S9x64x128.Idx → EReal :=
  shapeCast S9x64x128 (transpose S3x3x64x128 [2, 3, 1, 0] W transposes_S128x64x3x3_S3x3x64x128_2_3_1_0)
    shapeCasts_S3x3x64x128_S9x64x128

/-- Image `n`'s accumulator. -/
def accOf (X : S64x58x58x64.Idx → EReal) (w : ConvSum.WStack.Idx → EReal) (n : Nat) (hn : n < 64) : S3136x128.Idx → EReal :=
  ConvSum.acc (taps (ConvSpec.imageBlock X n hn)) w

/-- The statistics array as a function of the image array and the weight stack. -/
def statsFn (X : S64x58x58x64.Idx → EReal) (w : ConvSum.WStack.Idx → EReal) : S64x2x128.Idx → EReal := fun i =>
  statsBlock (accOf X w (i 0).val (i 0).isLt) (ix3 (0 : Fin 1) (⟨(i 1).val, (i 1).isLt⟩ : Fin 2) (⟨(i 2).val, (i 2).isLt⟩ : Fin 128))

set_option quotPrecheck false in
local notation "X₀" => imageOf (m ((c : Thread nD τ).loc main_arg0))
set_option quotPrecheck false in
local notation "w₀" => stackOf (m ((c : Thread nD τ).loc main_arg1))

/-- The first region's accumulator at grid point `t` is image `t`'s accumulator. -/
theorem accum_at (t : Fin cfg0.N) :
    accum (iblk0 (Gen.V1 (F := Ideal) m ρ) c 0 t) (iblk0 (Gen.V1 (F := Ideal) m ρ) c 1 t) = accOf X₀ w₀ t.val (pt0_lt t) := by
  refine (accum_eq _ _).trans ?_
  unfold accOf
  rw [image_block, weight_block, V1_image, V1_weights]

/-- The statistics array after the first region. -/
theorem stats_array : ((Gen.dat0 (Gen.V1 (F := Ideal) m ρ) c).arrAt 3 cfg0.N : S64x2x128.Idx → EReal) = statsFn X₀ w₀ := by
  rw [statsEq]
  funext i
  unfold statsArr statsFn
  rw [stats_block_eq, accum_at]
  rfl

/-- The conv array after the first region, at (n, p, o): image n's accumulator at (p, o). -/
theorem conv_array_apply (n : Fin 64) (p : Fin 3136) (o : Fin 128) :
    ((Gen.dat0 (Gen.V1 (F := Ideal) m ρ) c).arrAt 2 cfg0.N : S64x3136x128.Idx → EReal) (ix3 n p o) = accOf X₀ w₀ n.val n.isLt (ix2 p o) := by
  rw [convEq]
  show (out0_2 (F := Ideal) (iblk0 (Gen.V1 (F := Ideal) m ρ) c 0 (convPt n.val n.isLt)) (iblk0 (Gen.V1 (F := Ideal) m ρ) c 1 (convPt n.val n.isLt))
    : S1x3136x128.Idx → EReal) (ix3 (0 : Fin 1) p o) = _
  rw [conv_block_apply, accum_at]
  rfl

/-- A [128] vector reshaped to a [1, 1, 128] row, read at (0, 0, o). -/
theorem row_apply (v : S128.Idx → EReal) (o : Fin 128) :
    shapeCast S1x1x128 v shapeCasts_S128_S1x1x128 (ix3 (0 : Fin 1) (0 : Fin 1) o) = v (ix1 o) :=
  shapeCast_apply v shapeCasts_S128_S1x1x128 _ _ (by
    rw [Shape.rowMajor_val_one, Shape.rowMajor_val_three]
    show o.val = (0 * 1 + 0) * 128 + o.val
    omega)

/-- THE RESULT at (n, o, i, j), p = 56·i + j. -/
theorem result_formula (n : Fin 64) (o : Fin 128) (i j : Fin 56) (p : Fin 3136) (hp : p.val = i.val * 56 + j.val) :
    (Gen.W5 (F := Ideal) m ρ c (Proc.devRef .tc main_v0) : S64x128x56x56.Idx → EReal) (ix4 n o i j)
      = max (accOf X₀ w₀ n.val n.isLt (ix2 p o)
              * scaleOf (statsFn X₀ w₀) (m ((c : Thread nD τ).loc main_arg2)) (ix1 o)
            + shiftOf (statsFn X₀ w₀) (m ((c : Thread nD τ).loc main_arg2)) (m ((c : Thread nD τ).loc main_arg3)) (ix1 o))
          0 := by
  rw [result_apply m ρ c n o i j p hp, actEq]
  show (out1_3 (F := Ideal) (iblk1 (Gen.V3 (F := Ideal) m ρ) c 0 (actPt n.val n.isLt)) (iblk1 (Gen.V3 (F := Ideal) m ρ) c 1 (actPt n.val n.isLt))
      (iblk1 (Gen.V3 (F := Ideal) m ρ) c 2 (actPt n.val n.isLt)) : S1x3136x128.Idx → EReal) (ix3 (0 : Fin 1) p o) = _
  rw [act_block_apply, conv_block_apply', scale_block, shift_block, V3_conv, V3_scale, V3_shift, row_apply, row_apply]
  rw [stats_array]
  have h := conv_array_apply m ρ c n p o
  rw [show (ix3 (⟨(actPt n.val n.isLt).val, pt1_lt (actPt n.val n.isLt)⟩ : Fin 64) p o : S64x3136x128.Idx) = ix3 n p o from rfl, h]

end Cert.ReferenceIdeal.RefValue

end
-- ==== Proof.BridgeParts.lean ====
/-
  The two programs' building blocks are the same functions. Each program's proof names, in its own namespace, the nine
  tap matrices of an image block, the statistics block of an accumulator, and the host's scale and shift chains; the
  two spellings apply the same operations to the same literals (they differ only in the side-condition proofs the
  operations carry, and in a float format that is the identity on extended reals), so they are equal by unfolding.
-/
import proofs.«103070_g2000601905423008_pallasbulk_286_2_alg».proof.Proof.ConvSum
import proofs.«103070_g2000601905423008_pallasbulk_286_2_alg».proof.Proof.ConvSpec
import proofs.«103070_g2000601905423008_pallasbulk_286_2_alg».proof.Proof.KernelAccum
import proofs.«103070_g2000601905423008_pallasbulk_286_2_alg».proof.Proof.KernelPayloads
import proofs.«103070_g2000601905423008_pallasbulk_286_2_alg».proof.Proof.KernelMiddle
import proofs.«103070_g2000601905423008_pallasbulk_286_2_alg».proof.Proof.RefAccum
import proofs.«103070_g2000601905423008_pallasbulk_286_2_alg».proof.Proof.RefPayloads
import proofs.«103070_g2000601905423008_pallasbulk_286_2_alg».proof.Proof.RefMiddle

set_option maxRecDepth 16384

noncomputable section

namespace Cert.Bridge

open Idealize.ShloMosaic Idealize.ShloMosaic.ValueIdx

/-- The nine tap matrices of an image block. -/
theorem taps_eq (x0 : ConvSpec.Image.Idx → EReal) :
    Cert.KernelIdeal.KValue.taps x0 = Cert.ReferenceIdeal.RefValue.taps x0 := by
  funext t
  fin_cases t <;> rfl

/-- The statistics block of an accumulator. -/
theorem statsBlock_eq (a : ConvSum.Acc.Idx → EReal) :
    Cert.KernelIdeal.KValue.statsBlock a = Cert.ReferenceIdeal.RefValue.statsBlock a := rfl

/-- The scale chain. -/
theorem scaleOf_eq (s : Cert.KernelIdeal.S64x2x128.Idx → EReal) (g : Cert.KernelIdeal.S128.Idx → EReal) :
    Cert.KernelIdeal.KValue.scaleOf s g = Cert.ReferenceIdeal.RefValue.scaleOf s g := rfl

/-- The shift chain. -/
theorem shiftOf_eq (s : Cert.KernelIdeal.S64x2x128.Idx → EReal) (g b : Cert.KernelIdeal.S128.Idx → EReal) :
    Cert.KernelIdeal.KValue.shiftOf s g b = Cert.ReferenceIdeal.RefValue.shiftOf s g b := rfl

end Cert.Bridge

end
-- ==== Proof.Bridge.lean ====
/-
  The two programs end with the same result array. Each side's closed formula (KernelValue, RefValue) reads the
  result at (n, o, i, j) as max(A_n(56·i + j, o) · scale(o) + shift(o), 0) over the SAME ingredients once the argument
  arrays agree: the padded channels-last image array (the narrowing of the float format on one side is the identity),
  the [9, 64, 128] weight stack (one side flattens it to 576 rows, which KernelWeights undoes), image n's accumulator
  ConvSum.acc over the same nine tap matrices, the statistics array of those accumulators, and the host's scale and
  shift chains (BridgeParts). The rectifier's zero is the zero word on one side and the real 0 on the other.
-/
import proofs.«103070_g2000601905423008_pallasbulk_286_2_alg».proof.Proof.KernelValue
import proofs.«103070_g2000601905423008_pallasbulk_286_2_alg».proof.Proof.RefValue
import proofs.«103070_g2000601905423008_pallasbulk_286_2_alg».proof.Proof.BridgeParts
import Idealize.ShloMosaic.PureOps.Ideal.Laws

set_option maxRecDepth 16384

noncomputable section

namespace Cert.Bridge

open Idealize.ShloMosaic Idealize.ShloMosaic.TcCoe Idealize.ShloMosaic.ValueIdx Idealize.SL.Sem

/-- The padded channels-last image array. -/
theorem image_eq (x : Cert.KernelIdeal.S64x64x56x56.Idx → EReal) :
    Cert.KernelIdeal.KValue.imageOf x = Cert.ReferenceIdeal.RefValue.imageOf x := rfl

/-- The weight stack. -/
theorem stack_eq (W : Cert.KernelIdeal.S128x64x3x3.Idx → EReal) :
    Cert.KernelIdeal.KValue.weightStack (Cert.KernelIdeal.KValue.kernelsOf W) = Cert.ReferenceIdeal.RefValue.stackOf W := rfl

/-- Image `n`'s accumulator. -/
theorem accOf_eq (X : ConvSpec.Batch.Idx → EReal) (w : ConvSum.WStack.Idx → EReal) (n : Nat) (hn : n < 64) :
    Cert.KernelIdeal.KValue.accOf X w n hn = Cert.ReferenceIdeal.RefValue.accOf X w n hn := by
  unfold Cert.KernelIdeal.KValue.accOf Cert.ReferenceIdeal.RefValue.accOf
  rw [taps_eq]

/-- The statistics array. -/
theorem statsFn_eq (X : ConvSpec.Batch.Idx → EReal) (w : ConvSum.WStack.Idx → EReal) :
    Cert.KernelIdeal.KValue.statsFn X w = Cert.ReferenceIdeal.RefValue.statsFn X w := by
  funext i
  unfold Cert.KernelIdeal.KValue.statsFn Cert.ReferenceIdeal.RefValue.statsFn
  have h1 : Cert.KernelIdeal.KValue.accOf X w (i 0).val (i 0).isLt = Cert.ReferenceIdeal.RefValue.accOf X w (i 0).val (i 0).isLt :=
    accOf_eq X w _ _
  exact (congrFun (congrArg Cert.KernelIdeal.KValue.statsBlock h1) _).trans (congrFun (statsBlock_eq _) _)

/-- From memories agreeing on the four arguments, the reference's result array is the kernel's. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.W5 (F := Ideal) m' ρ' c (Proc.devRef .tc Cert.ReferenceIdeal.main_v0) : Cert.KernelIdeal.S64x128x56x56.Idx → EReal)
      = Cert.KernelIdeal.Gen.W5 (F := Ideal) m ρ c (Proc.devRef .tc Cert.KernelIdeal.main_v0) := by
  funext idx
  obtain ⟨n, o, i, j, rfl⟩ : ∃ (n : Fin 64) (o : Fin 128) (i j : Fin 56), idx = ix4 n o i j := ⟨idx 0, idx 1, idx 2, idx 3, eq_ix4 idx⟩
  have hp : i.val * 56 + j.val < 3136 := by have := i.isLt; have := j.isLt; omega
  refine (Cert.ReferenceIdeal.RefValue.result_formula m' ρ' c n o i j ⟨i.val * 56 + j.val, hp⟩ rfl).trans ?_
  refine Eq.trans ?_ (Cert.KernelIdeal.KValue.result_formula m ρ c n o i j ⟨i.val * 56 + j.val, hp⟩ rfl).symm
  rw [h0, h1, h2, h3]
  unfold Cert.KernelIdeal.KValue.X₀ Cert.KernelIdeal.KValue.w₀
  rw [image_eq, stack_eq, accOf_eq, statsFn_eq, scaleOf_eq, shiftOf_eq]
  show max _ (0 : EReal) = max _ (Ideal.ofBits .f32 0x00000000#32)
  rw [Ideal.ofBits_zero_f32]

end Cert.Bridge

end
-- ==== Proof.lean ====
/-
  The certificate: a 3×3 convolution (padding 1) of a [64, 64, 56, 56] batch with [128, 64, 3, 3] weights, batch
  normalisation with the batch's own per-channel statistics, and a rectifier, computed by two programs that each run
  two kernel regions (convolution + per-image statistics; scale, shift and rectify) with host operations around them.

  Frames: each program's run terminates without a fault and leaves its four argument arrays as launched (the
  generated frame certificates). The idealized kernel is the kernel's own text read on the extended reals (the ideal
  pass rewrote nothing), so `preserves` asks nothing. Algebraic: on the extended reals both programs end with
  max(A_n(56·i + j, o) · scale(o) + shift(o), 0) at (n, o, i, j), where A_n is image n's convolution accumulator — one
  program sums its 576 products in one contraction over the nine taps laid side by side, the other adds nine
  contractions of 64 to a zero accumulator; the two groupings of one finite sum agree with nothing assumed finite
  (ConvSum) — and scale, shift are one chain of host operations applied to the same statistics of the same
  accumulators (Bridge).
-/
import proofs.«103070_g2000601905423008_pallasbulk_286_2_alg».proof.Defs
import proofs.«103070_g2000601905423008_pallasbulk_286_2_alg».proof.Proof.Gen.Kernel
import proofs.«103070_g2000601905423008_pallasbulk_286_2_alg».proof.Proof.Gen.Kernel.Frame
import proofs.«103070_g2000601905423008_pallasbulk_286_2_alg».proof.Proof.Gen.KernelIdeal
import proofs.«103070_g2000601905423008_pallasbulk_286_2_alg».proof.Proof.Gen.KernelIdeal.Frame
import proofs.«103070_g2000601905423008_pallasbulk_286_2_alg».proof.Proof.Gen.ReferenceIdeal
import proofs.«103070_g2000601905423008_pallasbulk_286_2_alg».proof.Proof.Gen.ReferenceIdeal.Frame
import proofs.«103070_g2000601905423008_pallasbulk_286_2_alg».proof.Proof.Gen.Pre_finite_inputs
import proofs.«103070_g2000601905423008_pallasbulk_286_2_alg».proof.Proof.KernelRun
import proofs.«103070_g2000601905423008_pallasbulk_286_2_alg».proof.Proof.ReferenceRun
import proofs.«103070_g2000601905423008_pallasbulk_286_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- The ideal pass rewrote no operation: nothing to preserve. -/
theorem preserves : Cert.preserves_Kernel_KernelIdeal := trivial

/-- Both idealized programs run, and from memories agreeing on the arguments end with the same result array. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v0),
    Cert.KernelIdeal.RunValue.run (F := Ideal) m ρ, ?_⟩
  refine (θ_run Cert.ReferenceIdeal.defs _ _).mono (fun r h c => ⟨(h c).1.trans ?_, (h c).2⟩)
    (Cert.ReferenceIdeal.RunValue.run (F := Ideal) m' ρ')
  exact Cert.Bridge.result_eq m ρ m' ρ' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
